-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x3x256 : Shape := ⟨3, ![100000, 3, 256]⟩
abbrev S256 : Shape := ⟨1, ![256]⟩
abbrev S256x256 : Shape := ⟨2, ![256, 256]⟩
abbrev S512x256 : Shape := ⟨2, ![512, 256]⟩
abbrev S256x768 : Shape := ⟨2, ![256, 768]⟩
abbrev S768 : Shape := ⟨1, ![768]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x3x256 : S_.BroadcastsInDim S100000x3x256 (![] : Fin 0 → Fin S100000x3x256.rank)
  reducesTo_S100000x3x256_S_d0_1_2 : S100000x3x256.ReducesTo [0, 1, 2] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S256 .f32) (main_arg8 : FVec F S256x768 .f32) (main_arg9 : FVec F S768 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x768 .f32 := Host.absf main_arg8
  let main_cst_14 : FVec F S_ .f32 := constant S_ .f32 0x7F800000#32
  let main_v40 : FVec F S256x768 .f32 := broadcastInDim S256x768 ![] bcast_S_S256x768 main_cst_14
  let main_v41 : IVec S256x768 1 := cmpf .olt main_v39 main_v40
  let main_c_15 : IVec S_ 1 := constantI S_ 1 1#1
  let main_v42 : IVec S_ 1 := (fun x v => Host.reduce IntOp.andi x v reducesTo_S256x768_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  main_v48

def fn_part1 {F : FTy → Type} [FloatOps F] (main_arg4 : FVec F S256x256 .f32) (main_arg5 : FVec F S256x256 .f32) (main_arg6 : FVec F S512x256 .f32) (main_arg7 : FVec F S256 .f32) (main_arg8 : FVec F S256x768 .f32) (main_arg9 : FVec F S768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x256 .f32) (main_arg1 : FVec F S100000x3x256 .f32) (main_arg2 : FVec F S256 .f32) (main_arg3 : FVec F S256 .f32) (main_arg4 : FVec F S256x256 .f32) (main_arg5 : FVec F S256x256 .f32) (main_arg6 : FVec F S512x256 .f32) (main_arg7 : FVec F S256 .f32) (main_arg8 : FVec F S256x768 .f32) (main_arg9 : FVec F S768 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x3x256 .f32 := Host.absf main_arg1
  let main_cst_0 : FVec F S_ .f32 := constant S_ .f32 0x7F800000#32
  let main_v5 : FVec F S100000x3x256 .f32 := broadcastInDim S100000x3x256 ![] bcast_S_S100000x3x256 main_cst_0
  let main_v6 : IVec S100000x3x256 1 := cmpf .olt main_v4 main_v5
  let main_c_1 : IVec S_ 1 := constantI S_ 1 1#1
  let main_v7 : IVec S_ 1 := (fun x v => Host.reduce IntOp.andi x v reducesTo_S100000x3x256_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S100000x256 : Shape := ⟨2, ![100000, 256]⟩
abbrev S100000x3x256 : Shape := ⟨3, ![100000, 3, 256]⟩
abbrev S256 : Shape := ⟨1, ![256]⟩
abbrev S256x256 : Shape := ⟨2, ![256, 256]⟩
abbrev S512x256 : Shape := ⟨2, ![512, 256]⟩
abbrev S256x768 : Shape := ⟨2, ![256, 768]⟩
abbrev S768 : Shape := ⟨1, ![768]⟩
abbrev S100000x768 : Shape := ⟨2, ![100000, 768]⟩
abbrev S256x512 : Shape := ⟨2, ![256, 512]⟩
abbrev S1000x256 : Shape := ⟨2, ![1000, 256]⟩
abbrev S1000x768 : Shape := ⟨2, ![1000, 768]⟩
abbrev S1000x512 : Shape := ⟨2, ![1000, 512]⟩
abbrev S1000 : Shape := ⟨1, ![1000]⟩
abbrev S1000x1 : Shape := ⟨2, ![1000, 1]⟩
abbrev S1x256 : Shape := ⟨2, ![1, 256]⟩
abbrev S1x768 : Shape := ⟨2, ![1, 768]⟩

abbrev nBuf : Space → Nat
  | .hbm => 17
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S100000x3x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S512x256, .f32⟩
  | .hbm, ⟨7, _⟩ => ⟨S256, .f32⟩
  | .hbm, ⟨8, _⟩ => ⟨S256x768, .f32⟩
  | .hbm, ⟨9, _⟩ => ⟨S768, .f32⟩
  | .hbm, ⟨10, _⟩ => ⟨S100000x768, .f32⟩
  | .hbm, ⟨11, _⟩ => ⟨S256x512, .f32⟩
  | .hbm, ⟨12, _⟩ => ⟨S512x256, .bf16⟩
  | .hbm, ⟨13, _⟩ => ⟨S256x768, .bf16⟩
  | .hbm, ⟨14, _⟩ => ⟨S100000x256, .f32⟩
  | .hbm, ⟨15, _⟩ => ⟨S100000x768, .f32⟩
  | .hbm, ⟨16, _⟩ => ⟨S100000x3x256, .f32⟩
  | .local _ .vmem, ⟨0, _⟩ => ⟨S1000x256, .f32⟩
  | .local _ .vmem, ⟨1, _⟩ => ⟨S1000x256, .f32⟩
  | .local _ .vmem, ⟨2, _⟩ => ⟨S1000x768, .f32⟩
  | .local _ .vmem, ⟨3, _⟩ => ⟨S1000x768, .f32⟩
  | .local _ .vmem, ⟨4, _⟩ => ⟨S256, .f32⟩
  | .local _ .vmem, ⟨5, _⟩ => ⟨S256, .f32⟩
  | .local _ .vmem, ⟨6, _⟩ => ⟨S256x512, .f32⟩
  | .local _ .vmem, ⟨7, _⟩ => ⟨S512x256, .bf16⟩
  | .local _ .vmem, ⟨8, _⟩ => ⟨S256, .f32⟩
  | .local _ .vmem, ⟨9, _⟩ => ⟨S256x768, .bf16⟩
  | .local _ .vmem, ⟨10, _⟩ => ⟨S768, .f32⟩
  | .local _ .vmem, ⟨11, _⟩ => ⟨S1000x256, .f32⟩
  | .local _ .vmem, ⟨12, _⟩ => ⟨S1000x256, .f32⟩
  | .local _ .vmem, ⟨13, _⟩ => ⟨S1000x768, .f32⟩
  | .local _ .vmem, ⟨14, _⟩ => ⟨S1000x768, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S100000x3x256_S100000x768 : S100000x3x256.ShapeCasts S100000x768
  concatenates_S256x256_S256x256_S256x512_d1 : Shape.Concatenates [S256x256, S256x256] S256x512 1
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  inb_S1000x768_S1000x768_0_0 : ∀ a, (![0, 0] : Fin 2 → Nat) a + S1000x768.size a ≤ S1000x768.size a
  h_S1000x768 : 0 < S1000x768.numel
  shapeCasts_S1000x768_S1000x768 : S1000x768.ShapeCasts S1000x768
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S1000x768_o0_0_S1000x256 : S1000x768.Slices ![0, 0] S1000x256
  slices_S1000x512_o0_0_S1000x256 : S1000x512.Slices ![0, 0] S1000x256
  slices_S1000x512_o0_256_S1000x256 : S1000x512.Slices ![0, 256] S1000x256
  slices_S1000x768_o0_256_S1000x256 : S1000x768.Slices ![0, 256] S1000x256
  slices_S1000x768_o0_512_S1000x256 : S1000x768.Slices ![0, 512] S1000x256
  reduces_S1000x256_S1000 : S1000x256.Reduces [1] S1000
  shapeCasts_S1000_S1000x1 : S1000.ShapeCasts S1000x1
  broadcasts_S1000x1_S1000x256 : S1000x1.Broadcasts S1000x256
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  concatenates_S1000x256_S1000x256_S1000x512_d1 : Shape.Concatenates [S1000x256, S1000x256] S1000x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S1000x768 : S1x768.Broadcasts S1000x768
  concatenates_S1000x256_S1000x256_S1000x256_S1000x768_d1 : Shape.Concatenates [S1000x256, S1000x256, S1000x256] S1000x768 1
  shapeCasts_S100000x768_S100000x3x256 : S100000x768.ShapeCasts S100000x3x256
  dot_S1000x256_S256x512_S1000x512_1_0_0_1_n_n_wf : DotDims.WF S1000x256 S256x512 S1000x512 [1] [0] [0] [1] [] []
  dot_S1000x512_S512x256_S1000x256_1_0_0_1_n_n_wf : DotDims.WF S1000x512 S512x256 S1000x256 [1] [0] [0] [1] [] []
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S100000x768.size a
  hwx0_1 : ∀ i : grid0.Coords, EltTy.bits .f32 = 32 ∨ (Rect.block (s := S100000x768) S1000x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x768.size a ≤ S256x768.size a
  hwx0_7 : ∀ i : grid0.Coords, EltTy.bits .bf16 = 32 ∨ (Rect.block (s := S256x768) S256x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768.size a ≤ S768.size a
  hwx0_8 : ∀ i : grid0.Coords, EltTy.bits .f32 = 32 ∨ (Rect.block (s := S768) S768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x256.size a ≤ S100000x256.size a
  hwx0_9 : ∀ i : grid0.Coords, EltTy.bits .f32 = 32 ∨ (Rect.block (s := S100000x256) S1000x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x768.size a ≤ S100000x768.size a
  hwx0_10 : ∀ i : grid0.Coords, EltTy.bits .f32 = 32 ∨ (Rect.block (s := S100000x768) S1000x768.size (cc0_transform_10 i) (hinb0_10 i)).WholeWords (EltTy.packing .f32)

variable [Facts₀]

def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S1000x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S1000x768.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000x3x256 : Shape := ⟨3, ![100000, 3, 256]⟩
abbrev S256 : Shape := ⟨1, ![256]⟩
abbrev S256x256 : Shape := ⟨2, ![256, 256]⟩
abbrev S512x256 : Shape := ⟨2, ![512, 256]⟩
abbrev S256x768 : Shape := ⟨2, ![256, 768]⟩
abbrev S768 : Shape := ⟨1, ![768]⟩
abbrev S_ : Shape := ⟨0, ![]⟩
abbrev S100000 : Shape := ⟨1, ![100000]⟩
abbrev S100000x1 : Shape := ⟨2, ![100000, 1]⟩
abbrev S1x256 : Shape := ⟨2, ![1, 256]⟩
abbrev S100000x512 : Shape := ⟨2, ![100000, 512]⟩
abbrev S100000x768 : Shape := ⟨2, ![100000, 768]⟩
abbrev S1x768 : Shape := ⟨2, ![1, 768]⟩
abbrev S100000x1x256 : Shape := ⟨3, ![100000, 1, 256]⟩

abbrev nBuf : Space → Nat
  | .hbm => 79
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x3x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S512x256, .f32⟩
  | .hbm, ⟨7, _⟩ => ⟨S256, .f32⟩
  | .hbm, ⟨8, _⟩ => ⟨S256x768, .f32⟩
  | .hbm, ⟨9, _⟩ => ⟨S768, .f32⟩
  | .hbm, ⟨10, _⟩ => ⟨S100000x3x256, .f32⟩
  | .hbm, ⟨11, _⟩ => ⟨S100000x3x256, .f32⟩
  | .hbm, ⟨12, _⟩ => ⟨S100000x3x256, .f32⟩
  | .hbm, ⟨13, _⟩ => ⟨S_, .f32⟩
  | .hbm, ⟨14, _⟩ => ⟨S100000x256, .f32⟩
  | .hbm, ⟨15, _⟩ => ⟨S_, .f32⟩
  | .hbm, ⟨16, _⟩ => ⟨S100000x256, .f32⟩
  | .hbm, ⟨17, _⟩ => ⟨S100000x256, .f32⟩
  | .hbm, ⟨18, _⟩ => ⟨S100000x256, .f32⟩
  | .hbm, ⟨19, _⟩ => ⟨S_, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S100000x256, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x256, .f32⟩
  | .hbm, ⟨35, _⟩ => ⟨S100000x256, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x1, .f32⟩
  | .hbm, ⟨40, _⟩ => ⟨S100000x256, .f32⟩
  | .hbm, ⟨41, _⟩ => ⟨S100000x256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S1x256, .f32⟩
  | .hbm, ⟨46, _⟩ => ⟨S100000x256, .f32⟩
  | .hbm, ⟨47, _⟩ => ⟨S100000x256, .f32⟩
  | .hbm, ⟨48, _⟩ => ⟨S100000x512, .f32⟩
  | .hbm, ⟨49, _⟩ => ⟨S100000x256, .f32⟩
  | .hbm, ⟨50, _⟩ => ⟨S1x256, .f32⟩
  | .hbm, ⟨51, _⟩ => ⟨S100000x256, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S_, .f32⟩
  | .hbm, ⟨56, _⟩ => ⟨S100000x256, .f32⟩
  | .hbm, ⟨57, _⟩ => ⟨S100000x256, .f32⟩
  | .hbm, ⟨58, _⟩ => ⟨S_, .f32⟩
  | .hbm, ⟨59, _⟩ => ⟨S100000x256, .f32⟩
  | .hbm, ⟨60, _⟩ => ⟨S100000x256, .f32⟩
  | .hbm, ⟨61, _⟩ => ⟨S100000x256, .f32⟩
  | .hbm, ⟨62, _⟩ => ⟨S100000x768, .f32⟩
  | .hbm, ⟨63, _⟩ => ⟨S1x768, .f32⟩
  | .hbm, ⟨64, _⟩ => ⟨S100000x768, .f32⟩
  | .hbm, ⟨65, _⟩ => ⟨S100000x768, .f32⟩
  | .hbm, ⟨66, _⟩ => ⟨S100000x256, .f32⟩
  | .hbm, ⟨67, _⟩ => ⟨S100000x256, .f32⟩
  | .hbm, ⟨68, _⟩ => ⟨S100000x256, .f32⟩
  | .hbm, ⟨69, _⟩ => ⟨S100000x3x256, .f32⟩
  | .hbm, ⟨70, _⟩ => ⟨S_, .f32⟩
  | .hbm, ⟨71, _⟩ => ⟨S100000x256, .f32⟩
  | .hbm, ⟨72, _⟩ => ⟨S100000x256, .f32⟩
  | .hbm, ⟨73, _⟩ => ⟨S100000x256, .f32⟩
  | .hbm, ⟨74, _⟩ => ⟨S100000x256, .f32⟩
  | .hbm, ⟨75, _⟩ => ⟨S100000x1x256, .f32⟩
  | .hbm, ⟨76, _⟩ => ⟨S100000x3x256, .f32⟩
  | .hbm, ⟨77, _⟩ => ⟨S100000x3x256, .f32⟩
  | .hbm, ⟨78, _⟩ => ⟨S100000x3x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  reducesTo_S100000x3x256_S100000x256_d1 : S100000x3x256.ReducesTo [1] S100000x256
  h_S_ : 0 < S_.numel
  bcast_S_S100000x256 : S_.BroadcastsInDim S100000x256 (![] : Fin 0 → Fin S100000x256.rank)
  reducesTo_S100000x256_S100000_d1 : S100000x256.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  concatenates_S100000x256_S100000x256_S100000x512_d1 : Shape.Concatenates [S100000x256, S100000x256] S100000x512 1
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  slices_S100000x768_S100000x256_0_0 : S100000x768.Slices ![0, 0] S100000x256
  slices_S100000x768_S100000x256_0_256 : S100000x768.Slices ![0, 256] S100000x256
  slices_S100000x768_S100000x256_0_512 : S100000x768.Slices ![0, 512] S100000x256
  bcast_S100000x256_S100000x1x256_0_2 : S100000x256.BroadcastsInDim S100000x1x256 (![0, 2] : Fin 2 → Fin S100000x1x256.rank)
  bcast_S100000x1x256_S100000x3x256_0_1_2 : S100000x1x256.BroadcastsInDim S100000x3x256 (![0, 1, 2] : Fin 3 → Fin S100000x3x256.rank)
  dot_S100000x3x256_S256x256_S100000x3x256_2_0_01_1_n_n_wf : DotDims.WF S100000x3x256 S256x256 S100000x3x256 [2] [0] [0, 1] [1] [] []
  dot_S100000x512_S512x256_S100000x256_1_0_0_1_n_n_wf : DotDims.WF S100000x512 S512x256 S100000x256 [1] [0] [0] [1] [] []
  dot_S100000x256_S256x768_S100000x768_1_0_0_1_n_n_wf : DotDims.WF S100000x256 S256x768 S100000x768 [1] [0] [0] [1] [] []

variable [Facts₀]

def dot_S100000x3x256_S256x256_S100000x3x256_2_0_01_1_n_n : DotDims S100000x3x256 S256x256 S100000x3x256 where
  lhsContracting := [2]
  rhsContracting := [0]
  lhsNonContracting := [0, 1]
  rhsNonContracting := [1]
  lhsBatch := []
  rhsBatch := []
  wf := dot_S100000x3x256_S256x256_S100000x3x256_2_0_01_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x768_S100000x768_1_0_0_1_n_n : DotDims S100000x256 S256x768 S100000x768 where
  lhsContracting := [1]
  rhsContracting := [0]
  lhsNonContracting := [0]
  rhsNonContracting := [1]
  lhsBatch := []
  rhsBatch := []
  wf := dot_S100000x256_S256x768_S100000x768_1_0_0_1_n_n_wf

class Facts : Prop extends Facts₀ where

variable [Facts]
-- ==== Proof.KMatmul.lean ====
/-
  The idealized kernel's three matrix products read at an entry: each is the plain sum over the contracted axis of
  the left operand's row against the right operand's column (the accumulator is the zero splat).
-/
import proofs.«137212_j88897233093049_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KMatmul

open Cert.KernelIdeal Cert.KernelIdeal.Gen Idealize.ShloMosaic Idealize.ShloMosaic.TcCoe Idealize.ShloMosaic.ValueIdx

variable [Cert.KernelIdeal.Facts] {φ₁ φ₂ : FTy}

theorem mm_uvw_l0 (i : S1000x512.Idx) (q : dot_S1000x256_S256x512_S1000x512_1_0_0_1_n_n.contr.Idx) : (dot_S1000x256_S256x512_S1000x512_1_0_0_1_n_n.lhsIdx i q 0).val = (i 0).val := by
  unfold DotDims.lhsIdx
  rw [dif_neg (show ¬(0 : Fin S1000x256.rank) ∈ dot_S1000x256_S256x512_S1000x512_1_0_0_1_n_n.lhsBatch by decide), dif_pos (show (0 : Fin S1000x256.rank) ∈ dot_S1000x256_S256x512_S1000x512_1_0_0_1_n_n.lhsNonContracting by decide)]
  rfl
theorem mm_uvw_l1 (i : S1000x512.Idx) (q : dot_S1000x256_S256x512_S1000x512_1_0_0_1_n_n.contr.Idx) : (dot_S1000x256_S256x512_S1000x512_1_0_0_1_n_n.lhsIdx i q 1).val = (q ⟨0, by decide⟩).val :=
  dot_S1000x256_S256x512_S1000x512_1_0_0_1_n_n.lhsIdx_val_of_single rfl i q
theorem mm_uvw_r0 (i : S1000x512.Idx) (q : dot_S1000x256_S256x512_S1000x512_1_0_0_1_n_n.contr.Idx) : (dot_S1000x256_S256x512_S1000x512_1_0_0_1_n_n.rhsIdx i q 0).val = (q ⟨0, by decide⟩).val :=
  dot_S1000x256_S256x512_S1000x512_1_0_0_1_n_n.rhsIdx_val_of_single rfl i q
theorem mm_uvw_r1 (i : S1000x512.Idx) (q : dot_S1000x256_S256x512_S1000x512_1_0_0_1_n_n.contr.Idx) : (dot_S1000x256_S256x512_S1000x512_1_0_0_1_n_n.rhsIdx i q 1).val = (i 1).val := by
  unfold DotDims.rhsIdx
  rw [dif_neg (show ¬(1 : Fin S256x512.rank) ∈ dot_S1000x256_S256x512_S1000x512_1_0_0_1_n_n.rhsBatch by decide), dif_pos (show (1 : Fin S256x512.rank) ∈ dot_S1000x256_S256x512_S1000x512_1_0_0_1_n_n.rhsNonContracting by decide)]
  rfl

/-- A matrix product into the zero accumulator, read at row `r`, column `j`: the sum over the contracted axis. -/
theorem mm_uvw (X : FVec Ideal S1000x256 φ₁) (W : FVec Ideal S256x512 φ₂) (prec : Option ContractPrecision) (r : Fin 1000) (j : Fin 512) :
    matmul dot_S1000x256_S256x512_S1000x512_1_0_0_1_n_n prec X W (constant S1000x512 .f32 0x00000000#32) (ix2 r j)
      = ∑ k : Fin 256, X (ix2 r k) * W (ix2 k j) := by
  show FloatOps.matmul dot_S1000x256_S256x512_S1000x512_1_0_0_1_n_n prec X W (constant S1000x512 .f32 0x00000000#32) (ix2 r j) = _
  rw [Ideal.matmul_constant_zero_apply, ← Equiv.sum_comp (ValueIdx.contrEquiv1 dot_S1000x256_S256x512_S1000x512_1_0_0_1_n_n 256 rfl rfl).symm]
  refine Finset.sum_congr rfl fun k _ => ?_
  have hk := ValueIdx.contrEquiv1_symm_val dot_S1000x256_S256x512_S1000x512_1_0_0_1_n_n 256 rfl rfl k
  have el : dot_S1000x256_S256x512_S1000x512_1_0_0_1_n_n.lhsIdx (ix2 r j) ((ValueIdx.contrEquiv1 dot_S1000x256_S256x512_S1000x512_1_0_0_1_n_n 256 rfl rfl).symm k) = ix2 r k := funext fun a => Fin.ext (by
    match a with
    | ⟨0, _⟩ => exact mm_uvw_l0 _ _
    | ⟨1, _⟩ => exact (mm_uvw_l1 _ _).trans hk)
  have er : dot_S1000x256_S256x512_S1000x512_1_0_0_1_n_n.rhsIdx (ix2 r j) ((ValueIdx.contrEquiv1 dot_S1000x256_S256x512_S1000x512_1_0_0_1_n_n 256 rfl rfl).symm k) = ix2 k j := funext fun a => Fin.ext (by
    match a with
    | ⟨0, _⟩ => exact (mm_uvw_r0 _ _).trans hk
    | ⟨1, _⟩ => exact mm_uvw_r1 _ _)
  rw [el, er]

theorem mm_w1_l0 (i : S1000x256.Idx) (q : dot_S1000x512_S512x256_S1000x256_1_0_0_1_n_n.contr.Idx) : (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem mm_w1_l1 (i : S1000x256.Idx) (q : dot_S1000x512_S512x256_S1000x256_1_0_0_1_n_n.contr.Idx) : (dot_S1000x512_S512x256_S1000x256_1_0_0_1_n_n.lhsIdx i q 1).val = (q ⟨0, by decide⟩).val :=
  dot_S1000x512_S512x256_S1000x256_1_0_0_1_n_n.lhsIdx_val_of_single rfl i q
theorem mm_w1_r0 (i : S1000x256.Idx) (q : dot_S1000x512_S512x256_S1000x256_1_0_0_1_n_n.contr.Idx) : (dot_S1000x512_S512x256_S1000x256_1_0_0_1_n_n.rhsIdx i q 0).val = (q ⟨0, by decide⟩).val :=
  dot_S1000x512_S512x256_S1000x256_1_0_0_1_n_n.rhsIdx_val_of_single rfl i q
theorem mm_w1_r1 (i : S1000x256.Idx) (q : dot_S1000x512_S512x256_S1000x256_1_0_0_1_n_n.contr.Idx) : (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-- A matrix product into the zero accumulator, read at row `r`, column `j`: the sum over the contracted axis. -/
theorem mm_w1 (X : FVec Ideal S1000x512 φ₁) (W : FVec Ideal S512x256 φ₂) (prec : Option ContractPrecision) (r : Fin 1000) (j : Fin 256) :
    matmul dot_S1000x512_S512x256_S1000x256_1_0_0_1_n_n prec X W (constant S1000x256 .f32 0x00000000#32) (ix2 r j)
      = ∑ k : Fin 512, X (ix2 r k) * W (ix2 k j) := by
  show FloatOps.matmul dot_S1000x512_S512x256_S1000x256_1_0_0_1_n_n prec X W (constant S1000x256 .f32 0x00000000#32) (ix2 r j) = _
  rw [Ideal.matmul_constant_zero_apply, ← Equiv.sum_comp (ValueIdx.contrEquiv1 dot_S1000x512_S512x256_S1000x256_1_0_0_1_n_n 512 rfl rfl).symm]
  refine Finset.sum_congr rfl fun k _ => ?_
  have hk := ValueIdx.contrEquiv1_symm_val dot_S1000x512_S512x256_S1000x256_1_0_0_1_n_n 512 rfl rfl k
  have el : dot_S1000x512_S512x256_S1000x256_1_0_0_1_n_n.lhsIdx (ix2 r j) ((ValueIdx.contrEquiv1 dot_S1000x512_S512x256_S1000x256_1_0_0_1_n_n 512 rfl rfl).symm k) = ix2 r k := funext fun a => Fin.ext (by
    match a with
    | ⟨0, _⟩ => exact mm_w1_l0 _ _
    | ⟨1, _⟩ => exact (mm_w1_l1 _ _).trans hk)
  have er : dot_S1000x512_S512x256_S1000x256_1_0_0_1_n_n.rhsIdx (ix2 r j) ((ValueIdx.contrEquiv1 dot_S1000x512_S512x256_S1000x256_1_0_0_1_n_n 512 rfl rfl).symm k) = ix2 k j := funext fun a => Fin.ext (by
    match a with
    | ⟨0, _⟩ => exact (mm_w1_r0 _ _).trans hk
    | ⟨1, _⟩ => exact mm_w1_r1 _ _)
  rw [el, er]

theorem mm_w2_l0 (i : S1000x768.Idx) (q : dot_S1000x256_S256x768_S1000x768_1_0_0_1_n_n.contr.Idx) : (dot_S1000x256_S256x768_S1000x768_1_0_0_1_n_n.lhsIdx i q 0).val = (i 0).val := by
  unfold DotDims.lhsIdx
  rw [dif_neg (show ¬(0 : Fin S1000x256.rank) ∈ dot_S1000x256_S256x768_S1000x768_1_0_0_1_n_n.lhsBatch by decide), dif_pos (show (0 : Fin S1000x256.rank) ∈ dot_S1000x256_S256x768_S1000x768_1_0_0_1_n_n.lhsNonContracting by decide)]
  rfl
theorem mm_w2_l1 (i : S1000x768.Idx) (q : dot_S1000x256_S256x768_S1000x768_1_0_0_1_n_n.contr.Idx) : (dot_S1000x256_S256x768_S1000x768_1_0_0_1_n_n.lhsIdx i q 1).val = (q ⟨0, by decide⟩).val :=
  dot_S1000x256_S256x768_S1000x768_1_0_0_1_n_n.lhsIdx_val_of_single rfl i q
theorem mm_w2_r0 (i : S1000x768.Idx) (q : dot_S1000x256_S256x768_S1000x768_1_0_0_1_n_n.contr.Idx) : (dot_S1000x256_S256x768_S1000x768_1_0_0_1_n_n.rhsIdx i q 0).val = (q ⟨0, by decide⟩).val :=
  dot_S1000x256_S256x768_S1000x768_1_0_0_1_n_n.rhsIdx_val_of_single rfl i q
theorem mm_w2_r1 (i : S1000x768.Idx) (q : dot_S1000x256_S256x768_S1000x768_1_0_0_1_n_n.contr.Idx) : (dot_S1000x256_S256x768_S1000x768_1_0_0_1_n_n.rhsIdx i q 1).val = (i 1).val := by
  unfold DotDims.rhsIdx
  rw [dif_neg (show ¬(1 : Fin S256x768.rank) ∈ dot_S1000x256_S256x768_S1000x768_1_0_0_1_n_n.rhsBatch by decide), dif_pos (show (1 : Fin S256x768.rank) ∈ dot_S1000x256_S256x768_S1000x768_1_0_0_1_n_n.rhsNonContracting by decide)]
  rfl

/-- A matrix product into the zero accumulator, read at row `r`, column `j`: the sum over the contracted axis. -/
theorem mm_w2 (X : FVec Ideal S1000x256 φ₁) (W : FVec Ideal S256x768 φ₂) (prec : Option ContractPrecision) (r : Fin 1000) (j : Fin 768) :
    matmul dot_S1000x256_S256x768_S1000x768_1_0_0_1_n_n prec X W (constant S1000x768 .f32 0x00000000#32) (ix2 r j)
      = ∑ k : Fin 256, X (ix2 r k) * W (ix2 k j) := by
  show FloatOps.matmul dot_S1000x256_S256x768_S1000x768_1_0_0_1_n_n prec X W (constant S1000x768 .f32 0x00000000#32) (ix2 r j) = _
  rw [Ideal.matmul_constant_zero_apply, ← Equiv.sum_comp (ValueIdx.contrEquiv1 dot_S1000x256_S256x768_S1000x768_1_0_0_1_n_n 256 rfl rfl).symm]
  refine Finset.sum_congr rfl fun k _ => ?_
  have hk := ValueIdx.contrEquiv1_symm_val dot_S1000x256_S256x768_S1000x768_1_0_0_1_n_n 256 rfl rfl k
  have el : dot_S1000x256_S256x768_S1000x768_1_0_0_1_n_n.lhsIdx (ix2 r j) ((ValueIdx.contrEquiv1 dot_S1000x256_S256x768_S1000x768_1_0_0_1_n_n 256 rfl rfl).symm k) = ix2 r k := funext fun a => Fin.ext (by
    match a with
    | ⟨0, _⟩ => exact mm_w2_l0 _ _
    | ⟨1, _⟩ => exact (mm_w2_l1 _ _).trans hk)
  have er : dot_S1000x256_S256x768_S1000x768_1_0_0_1_n_n.rhsIdx (ix2 r j) ((ValueIdx.contrEquiv1 dot_S1000x256_S256x768_S1000x768_1_0_0_1_n_n 256 rfl rfl).symm k) = ix2 k j := funext fun a => Fin.ext (by
    match a with
    | ⟨0, _⟩ => exact (mm_w2_r0 _ _).trans hk
    | ⟨1, _⟩ => exact mm_w2_r1 _ _)
  rw [el, er]

end Cert.KernelIdeal.KMatmul

end
-- ==== Proof.Spec.lean ====
/-
  The mathematics both programs compute, one atom (one row) at a time, on the extended reals.

  An atom carries a scalar feature row `sr : Fin 256 → EReal` and three vector-feature rows `vr d : Fin 256 → EReal`
  (d = 0, 1, 2).  With the weight matrices `U, V` (256 × 256), `W1` (512 × 256), `W2` (256 × 768) and the vectors
  `γ, β, b1` (256) and `b2` (768):
    Uv d = vr d · U,   Vv d = vr d · V                                   (two linear maps of each vector row)
    dotuv = Σ_d Uv d ⊙ Vv d,   nrm = sqrt (Σ_d Vv d ⊙ Vv d + 1e-8)        (entrywise over the 256 channels)
    mu = (Σ_j sr j) / 256,  var = (Σ_j (sr j - mu)²) / 256
    sn = (sr - mu) · rsqrt (var + 1e-5) ⊙ γ + β                           (the layer norm of the scalar row)
    hid = [sn | nrm] · W1 + b1,   act = hid ⊙ logistic hid,   ctx = act · W2 + b2
    sOut = sr + ctx[0:256] + ctx[256:512] ⊙ dotuv
    vOut d = vr d + ctx[512:768] ⊙ Uv d
  The three float literals are kept as the binary words both programs print.
-/
import Idealize.ShloMosaic.PureOps.Ideal
import Idealize.ShloMosaic.PureOps.Ideal.Laws

noncomputable section

namespace Cert.Spec

open Idealize.ShloMosaic

/-- The weights, as functions of plain coordinates. -/
structure Wts where
  U : Fin 256 → Fin 256 → EReal
  V : Fin 256 → Fin 256 → EReal
  γ : Fin 256 → EReal
  β : Fin 256 → EReal
  W1 : Fin 512 → Fin 256 → EReal
  b1 : Fin 256 → EReal
  W2 : Fin 256 → Fin 768 → EReal
  b2 : Fin 768 → EReal

/-- The divisor 256, and the two stabilizers 1e-8 and 1e-5 as the f32 words printed on both sides. -/
abbrev c256 : EReal := Ideal.ofBits .f32 0x43800000#32
abbrev e8 : EReal := Ideal.ofBits .f32 0x322BCC77#32
abbrev e5 : EReal := Ideal.ofBits .f32 0x3727C5AC#32

variable (w : Wts) (sr : Fin 256 → EReal) (vr : Fin 3 → Fin 256 → EReal)

/-- A vector row through `U`. -/
def Uv (d : Fin 3) (j : Fin 256) : EReal := ∑ k : Fin 256, vr d k * w.U k j
/-- A vector row through `V`. -/
def Vv (d : Fin 3) (j : Fin 256) : EReal := ∑ k : Fin 256, vr d k * w.V k j
/-- The channelwise inner product of the two images over the three components. -/
def dotuv (j : Fin 256) : EReal := Uv w vr 0 j * Vv w vr 0 j + Uv w vr 1 j * Vv w vr 1 j + Uv w vr 2 j * Vv w vr 2 j
/-- The channelwise norm of the `V` image over the three components, stabilized. -/
def nrm (j : Fin 256) : EReal :=
  Ideal.sqrt (Vv w vr 0 j * Vv w vr 0 j + Vv w vr 1 j * Vv w vr 1 j + Vv w vr 2 j * Vv w vr 2 j + e8)
/-- The mean of the scalar row. -/
def mu : EReal := Ideal.div (∑ j : Fin 256, sr j) c256
/-- Its variance. -/
def var : EReal := Ideal.div (∑ j : Fin 256, (sr j - mu sr) * (sr j - mu sr)) c256
/-- The layer norm of the scalar row. -/
def sn (j : Fin 256) : EReal := (sr j - mu sr) * Ideal.rsqrt (var sr + e5) * w.γ j + w.β j
/-- The gated network's input: the normalized scalar row beside the norm row. -/
def cin (k : Fin 512) : EReal :=
  if h : k.val < 256 then sn w sr ⟨k.val, h⟩ else nrm w vr ⟨k.val - 256, by have := k.isLt; omega⟩
/-- The hidden layer before its gate. -/
def hid (j : Fin 256) : EReal := (∑ k : Fin 512, cin w sr vr k * w.W1 k j) + w.b1 j
/-- The gate: x · logistic x. -/
def act (j : Fin 256) : EReal := hid w sr vr j * Ideal.logistic (hid w sr vr j)
/-- The network's 768 outputs. -/
def ctx (q : Fin 768) : EReal := (∑ j : Fin 256, act w sr vr j * w.W2 j q) + w.b2 q
/-- The scalar output row. -/
def sOut (j : Fin 256) : EReal :=
  sr j + ctx w sr vr ⟨j.val, by have := j.isLt; omega⟩ + ctx w sr vr ⟨256 + j.val, by have := j.isLt; omega⟩ * dotuv w vr j
/-- The vector output rows. -/
def vOut (d : Fin 3) (j : Fin 256) : EReal :=
  vr d j + ctx w sr vr ⟨512 + j.val, by have := j.isLt; omega⟩ * Uv w vr d j

end Cert.Spec

end
-- ==== Proof.KRead.lean ====
/-
  The idealized kernel's block, read one row at a time (first part): a row of the scalar block and of the flat vector
  block as an atom's rows, the staged weights as the specification's weights, and the two images `Uv d`, `Vv d` of
  the three vector rows — the fused 256 × 512 weight holds `U` in its columns 0…255 and `V` in its columns 256…511 —
  with the inner product and the stabilized norm over the three components.
-/
import proofs.«137212_j88897233093049_2_alg».proof.Proof.KMatmul
import proofs.«137212_j88897233093049_2_alg».proof.Proof.Spec
import Idealize.ShloMosaic.Lib.ValueLayout

noncomputable section

namespace Cert.KernelIdeal.KRead

open Cert.KernelIdeal Cert.KernelIdeal.Gen Idealize.ShloMosaic Idealize.ShloMosaic.TcCoe Idealize.ShloMosaic.ValueIdx

variable [Cert.KernelIdeal.Facts]

/-- The staged weights, as the specification's: the fused weight's left half is `U`, its right half `V`. -/
def kw (x2 x3 : Vec Ideal S256 .f32) (x4 : Vec Ideal S256x512 .f32) (x5 : Vec Ideal S512x256 .bf16) (x6 : Vec Ideal S256 .f32)
    (x7 : Vec Ideal S256x768 .bf16) (x8 : Vec Ideal S768 .f32) : Cert.Spec.Wts where
  U k j := x4 (ix2 k (⟨j.val, by have := j.isLt; omega⟩ : Fin 512))
  V k j := x4 (ix2 k (⟨256 + j.val, by have := j.isLt; omega⟩ : Fin 512))
  γ j := x2 (ix1 j)
  β j := x3 (ix1 j)
  W1 k j := x5 (ix2 k j)
  b1 j := x6 (ix1 j)
  W2 k q := x7 (ix2 k q)
  b2 q := x8 (ix1 q)

/-- Row `r` of the scalar block. -/
def ksr (x0 : Vec Ideal S1000x256 .f32) (r : Fin 1000) : Fin 256 → EReal := fun j => x0 (ix2 r j)
/-- Row `r` of the flat vector block, as three rows: component `d` sits in columns 256·d … 256·d + 255. -/
def kvr (x1 : Vec Ideal S1000x768 .f32) (r : Fin 1000) : Fin 3 → Fin 256 → EReal :=
  fun d k => x1 (ix2 r (⟨256 * d.val + k.val, by have := d.isLt; have := k.isLt; omega⟩ : Fin 768))

variable (x0 : Vec Ideal S1000x256 .f32) (x1 : Vec Ideal S1000x768 .f32) (x2 x3 : Vec Ideal S256 .f32) (x4 : Vec Ideal S256x512 .f32)
  (x5 : Vec Ideal S512x256 .bf16) (x6 : Vec Ideal S256 .f32) (x7 : Vec Ideal S256x768 .bf16) (x8 : Vec Ideal S768 .f32)

theorem sqrt_apply {s : Shape} {φ : FTy} (a : FVec Ideal s φ) (i : s.Idx) : sqrt a i = Ideal.sqrt (a i) := rfl
theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- The product of the 256 columns of the vector block from column `o` on with the fused weight, at `(r, j)`. -/
theorem uvw_apply (o : ℕ) (ho : o + 256 ≤ 768) (h : S1000x768.Slices ![0, o] S1000x256) (prec : Option ContractPrecision) (r : Fin 1000) (j : Fin 512) :
    matmul dot_S1000x256_S256x512_S1000x512_1_0_0_1_n_n prec (extractStridedSlice S1000x256 ![0, o] (k0_pay2 (F := Ideal) x1) h)
      (k0_pay3 (F := Ideal) x4) (constant S1000x512 .f32 0x00000000#32) (ix2 r j)
      = ∑ k : Fin 256, x1 (ix2 r (⟨o + k.val, by have := k.isLt; omega⟩ : Fin 768)) * x4 (ix2 k j) := by
  refine (Cert.KernelIdeal.KMatmul.mm_uvw _ _ prec r j).trans (Finset.sum_congr rfl fun k _ => ?_)
  unfold k0_pay2 k0_pay3
  rw [shapeCast_self, shapeCast_self]
  exact congrArg (· * _) (slice2_axis1_apply o x1 h r k ⟨o + k.val, by have := k.isLt; omega⟩ rfl)

theorem pay4_apply (r : Fin 1000) (j : Fin 512) :
    k0_pay4 (F := Ideal) x1 x4 (ix2 r j) = ∑ k : Fin 256, x1 (ix2 r (⟨0 + k.val, by have := k.isLt; omega⟩ : Fin 768)) * x4 (ix2 k j) :=
  uvw_apply x1 x4 0 (by omega) _ _ r j
theorem pay7_apply (r : Fin 1000) (j : Fin 512) :
    k0_pay7 (F := Ideal) x1 x4 (ix2 r j) = ∑ k : Fin 256, x1 (ix2 r (⟨256 + k.val, by have := k.isLt; omega⟩ : Fin 768)) * x4 (ix2 k j) :=
  uvw_apply x1 x4 256 (by omega) _ _ r j
theorem pay10_apply (r : Fin 1000) (j : Fin 512) :
    k0_pay10 (F := Ideal) x1 x4 (ix2 r j) = ∑ k : Fin 256, x1 (ix2 r (⟨512 + k.val, by have := k.isLt; omega⟩ : Fin 768)) * x4 (ix2 k j) :=
  uvw_apply x1 x4 512 (by omega) _ _ r j

local notation "W" => kw x2 x3 x4 x5 x6 x7 x8

/-- Columns 0…255 of the first product: the first vector row through `U`. -/
theorem pay5_apply (r : Fin 1000) (j : Fin 256) : k0_pay5 (F := Ideal) x1 x4 (ix2 r j) = Cert.Spec.Uv W (kvr x1 r) 0 j := by
  unfold k0_pay5
  refine (slice2_axis1_apply (n1 := 512) 0 (k0_pay4 (F := Ideal) x1 x4) _ r j ⟨j.val, by have := j.isLt; omega⟩ (Nat.zero_add _).symm).trans ?_
  rw [pay4_apply]
  exact Finset.sum_congr rfl fun k _ => rfl
/-- Columns 256…511 of it: the first vector row through `V`. -/
theorem pay6_apply (r : Fin 1000) (j : Fin 256) : k0_pay6 (F := Ideal) x1 x4 (ix2 r j) = Cert.Spec.Vv W (kvr x1 r) 0 j := by
  unfold k0_pay6
  refine (slice2_axis1_apply (n1 := 512) 256 (k0_pay4 (F := Ideal) x1 x4) _ r j ⟨256 + j.val, by have := j.isLt; omega⟩ rfl).trans ?_
  rw [pay4_apply]
  exact Finset.sum_congr rfl fun k _ => rfl
theorem pay8_apply (r : Fin 1000) (j : Fin 256) : k0_pay8 (F := Ideal) x1 x4 (ix2 r j) = Cert.Spec.Uv W (kvr x1 r) 1 j := by
  unfold k0_pay8
  refine (slice2_axis1_apply (n1 := 512) 0 (k0_pay7 (F := Ideal) x1 x4) _ r j ⟨j.val, by have := j.isLt; omega⟩ (Nat.zero_add _).symm).trans ?_
  rw [pay7_apply]
  exact Finset.sum_congr rfl fun k _ => rfl
theorem pay9_apply (r : Fin 1000) (j : Fin 256) : k0_pay9 (F := Ideal) x1 x4 (ix2 r j) = Cert.Spec.Vv W (kvr x1 r) 1 j := by
  unfold k0_pay9
  refine (slice2_axis1_apply (n1 := 512) 256 (k0_pay7 (F := Ideal) x1 x4) _ r j ⟨256 + j.val, by have := j.isLt; omega⟩ rfl).trans ?_
  rw [pay7_apply]
  exact Finset.sum_congr rfl fun k _ => rfl
theorem pay11_apply (r : Fin 1000) (j : Fin 256) : k0_pay11 (F := Ideal) x1 x4 (ix2 r j) = Cert.Spec.Uv W (kvr x1 r) 2 j := by
  unfold k0_pay11
  refine (slice2_axis1_apply (n1 := 512) 0 (k0_pay10 (F := Ideal) x1 x4) _ r j ⟨j.val, by have := j.isLt; omega⟩ (Nat.zero_add _).symm).trans ?_
  rw [pay10_apply]
  exact Finset.sum_congr rfl fun k _ => rfl
theorem pay12_apply (r : Fin 1000) (j : Fin 256) : k0_pay12 (F := Ideal) x1 x4 (ix2 r j) = Cert.Spec.Vv W (kvr x1 r) 2 j := by
  unfold k0_pay12
  refine (slice2_axis1_apply (n1 := 512) 256 (k0_pay10 (F := Ideal) x1 x4) _ r j ⟨256 + j.val, by have := j.isLt; omega⟩ rfl).trans ?_
  rw [pay10_apply]
  exact Finset.sum_congr rfl fun k _ => rfl

/-- The accumulated inner product, from the zero splat. -/
theorem pay13_apply (r : Fin 1000) (j : Fin 256) : k0_pay13 (F := Ideal) x1 x4 (ix2 r j) = Cert.Spec.dotuv W (kvr x1 r) j := by
  unfold k0_pay13
  simp only [addf_apply, mulf_apply, broadcast_apply]
  rw [pay5_apply x1 x2 x3 x4 x5 x6 x7 x8, pay6_apply x1 x2 x3 x4 x5 x6 x7 x8, pay8_apply x1 x2 x3 x4 x5 x6 x7 x8, pay9_apply x1 x2 x3 x4 x5 x6 x7 x8,
    pay11_apply x1 x2 x3 x4 x5 x6 x7 x8, pay12_apply x1 x2 x3 x4 x5 x6 x7 x8]
  show Ideal.ofBits .f32 0x00000000#32 + _ + _ + _ = _
  rw [Ideal.ofBits_zero_f32, zero_add]
  rfl

/-- The accumulated squares, stabilized, under the root. -/
theorem pay14_apply (r : Fin 1000) (j : Fin 256) : k0_pay14 (F := Ideal) x1 x4 (ix2 r j) = Cert.Spec.nrm W (kvr x1 r) j := by
  unfold k0_pay14
  simp only [sqrt_apply, addf_apply, mulf_apply, broadcast_apply]
  rw [pay6_apply x1 x2 x3 x4 x5 x6 x7 x8, pay9_apply x1 x2 x3 x4 x5 x6 x7 x8, pay12_apply x1 x2 x3 x4 x5 x6 x7 x8]
  show Ideal.sqrt (Ideal.ofBits .f32 0x00000000#32 + _ + _ + _ + _) = _
  rw [Ideal.ofBits_zero_f32, zero_add]
  rfl

end Cert.KernelIdeal.KRead

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.LibCatCols.lean ====
/-
  Arrays of `b` columns laid side by side along the columns, read at an entry: the piece the column falls in, at
  the column less the pieces before it.  Two pieces, and three.
-/
import Idealize.ShloMosaic.Lib.Pipeline.Value
import Idealize.ShloMosaic.Lib.ValueIdx

namespace Cert.LibCatCols

open Idealize.ShloMosaic Idealize.ShloMosaic.ValueIdx

/-- Two arrays of `b` columns side by side, read at `(r, k)`: the left one where `k < b`, else the right one at `k - b`. -/
theorem cat2_cols_apply {α : Type} {a b c : ℕ} (hc : c = b + b) (p q : (⟨2, ![a, b]⟩ : Shape).Idx → α)
    (h : Shape.Concatenates [(⟨2, ![a, b]⟩ : Shape), ⟨2, ![a, b]⟩] ⟨2, ![a, c]⟩ 1) (r : Fin a) (k : Fin c) :
    concatenate ⟨2, ![a, c]⟩ 1 [⟨⟨2, ![a, b]⟩, p⟩, ⟨⟨2, ![a, b]⟩, q⟩] h (ix2 r k)
      = if hk : k.val < b then p (ix2 r ⟨k.val, hk⟩) else q (ix2 r ⟨k.val - b, by have := k.isLt; omega⟩) := by
  split
  · next hk =>
    exact concatenate_pair_apply_left 1 p q h (ix2 r k) rfl (ix2 r ⟨k.val, hk⟩) (fun ax => by
      match ax with
      | ⟨0, _⟩ => rfl
      | ⟨1, _⟩ => rfl)
  · next hk =>
    exact concatenate_pair_apply_right 1 p q h (ix2 r k) rfl rfl (ix2 r ⟨k.val - b, by have := k.isLt; omega⟩) (fun ax hax => by
      match ax with
      | ⟨0, _⟩ => rfl
      | ⟨1, _⟩ => exact absurd rfl hax) (by show k.val - b + b = k.val; omega)

/-- Three arrays of `b` columns side by side, read in the first, the second and the third. -/
theorem cat3_cols_0 {α : Type} {a b c : ℕ} (p0 p1 p2 : (⟨2, ![a, b]⟩ : Shape).Idx → α)
    (h : Shape.Concatenates [(⟨2, ![a, b]⟩ : Shape), ⟨2, ![a, b]⟩, ⟨2, ![a, b]⟩] ⟨2, ![a, c]⟩ 1) (r : Fin a) (q : Fin c) (j : Fin b)
    (hq : q.val = j.val) :
    concatenate ⟨2, ![a, c]⟩ 1 [⟨⟨2, ![a, b]⟩, p0⟩, ⟨⟨2, ![a, b]⟩, p1⟩, ⟨⟨2, ![a, b]⟩, p2⟩] h (ix2 r q) = p0 (ix2 r j) :=
  concatenate_apply_piece (t := ⟨2, ![a, c]⟩) 1 [⟨⟨2, ![a, b]⟩, p0⟩, ⟨⟨2, ![a, b]⟩, p1⟩, ⟨⟨2, ![a, b]⟩, p2⟩] h (ix2 r q) 0 (by simp)
    ⟨2, ![a, b]⟩ p0 rfl rfl (0) (by simp) (ix2 r j)
    (fun ax hax => by
      match ax with
      | ⟨0, _⟩ => rfl
      | ⟨1, _⟩ => exact absurd rfl hax) (by show 0 + j.val = q.val; omega)

theorem cat3_cols_1 {α : Type} {a b c : ℕ} (p0 p1 p2 : (⟨2, ![a, b]⟩ : Shape).Idx → α)
    (h : Shape.Concatenates [(⟨2, ![a, b]⟩ : Shape), ⟨2, ![a, b]⟩, ⟨2, ![a, b]⟩] ⟨2, ![a, c]⟩ 1) (r : Fin a) (q : Fin c) (j : Fin b)
    (hq : q.val = b + j.val) :
    concatenate ⟨2, ![a, c]⟩ 1 [⟨⟨2, ![a, b]⟩, p0⟩, ⟨⟨2, ![a, b]⟩, p1⟩, ⟨⟨2, ![a, b]⟩, p2⟩] h (ix2 r q) = p1 (ix2 r j) :=
  concatenate_apply_piece (t := ⟨2, ![a, c]⟩) 1 [⟨⟨2, ![a, b]⟩, p0⟩, ⟨⟨2, ![a, b]⟩, p1⟩, ⟨⟨2, ![a, b]⟩, p2⟩] h (ix2 r q) 1 (by simp)
    ⟨2, ![a, b]⟩ p1 rfl rfl (b) (by simp) (ix2 r j)
    (fun ax hax => by
      match ax with
      | ⟨0, _⟩ => rfl
      | ⟨1, _⟩ => exact absurd rfl hax) (by show b + j.val = q.val; omega)

theorem cat3_cols_2 {α : Type} {a b c : ℕ} (p0 p1 p2 : (⟨2, ![a, b]⟩ : Shape).Idx → α)
    (h : Shape.Concatenates [(⟨2, ![a, b]⟩ : Shape), ⟨2, ![a, b]⟩, ⟨2, ![a, b]⟩] ⟨2, ![a, c]⟩ 1) (r : Fin a) (q : Fin c) (j : Fin b)
    (hq : q.val = b + b + j.val) :
    concatenate ⟨2, ![a, c]⟩ 1 [⟨⟨2, ![a, b]⟩, p0⟩, ⟨⟨2, ![a, b]⟩, p1⟩, ⟨⟨2, ![a, b]⟩, p2⟩] h (ix2 r q) = p2 (ix2 r j) :=
  concatenate_apply_piece (t := ⟨2, ![a, c]⟩) 1 [⟨⟨2, ![a, b]⟩, p0⟩, ⟨⟨2, ![a, b]⟩, p1⟩, ⟨⟨2, ![a, b]⟩, p2⟩] h (ix2 r q) 2 (by simp)
    ⟨2, ![a, b]⟩ p2 rfl rfl (b + b) (by simp) (ix2 r j)
    (fun ax hax => by
      match ax with
      | ⟨0, _⟩ => rfl
      | ⟨1, _⟩ => exact absurd rfl hax) (by show b + b + j.val = q.val; omega)

end Cert.LibCatCols
-- ==== Proof.KStats.lean ====
/-
  The idealized kernel's block, read one row at a time (second part): the layer-norm statistics of a scalar row — its
  mean, kept as a one-entry column, and the sum of squared deviations from it —,
  and a row sum as a plain sum.
-/
import proofs.«137212_j88897233093049_2_alg».proof.Proof.KRead
import proofs.«137212_j88897233093049_2_alg».proof.Proof.LibKeepdims
import proofs.«137212_j88897233093049_2_alg».proof.Proof.LibCatCols

noncomputable section

namespace Cert.KernelIdeal.KRead

open Cert.KernelIdeal Cert.KernelIdeal.Gen Idealize.ShloMosaic Idealize.ShloMosaic.TcCoe Idealize.ShloMosaic.ValueIdx

variable [Cert.KernelIdeal.Facts]
open Cert.LibKeepdims Cert.LibCatCols

/-- A sum along the columns, from the zero accumulator, read at row `r`: the plain sum of the row. -/
theorem rowsum_apply (X : FVec Ideal S1000x256 .f32) (hφ : FKind.Formats FTy.f32) (hacc : (0x00000000#32 : BitVec 32) = 0x00000000#32) (r : Fin 1000) :
    multiReduction .add [1] S1000 X 0x00000000#32 reduces_S1000x256_S1000 hφ hacc (ix1 r) = ∑ k : Fin 256, X (ix2 r k) := by
  refine (Ideal.multiReduction_add_single X 0x00000000#32 reduces_S1000x256_S1000 hφ hacc (ix1 r)).trans ?_
  refine Finset.sum_congr rfl fun k _ => congrArg X (funext fun a => Fin.ext ?_)
  match a with
  | ⟨0, _⟩ => rfl
  | ⟨1, _⟩ => rfl

variable (x0 : Vec Ideal S1000x256 .f32)

/-- The mean column at row `r`. -/
theorem pay15_apply (r : Fin 1000) : k0_pay15 (F := Ideal) x0 (ix2 r (0 : Fin 1)) = Cert.Spec.mu (ksr x0 r) := by
  unfold k0_pay15
  rw [divf_apply, broadcast_apply, shapeCast_a_a1_apply _ _ r 0, rowsum_apply]
  rfl

/-- The column of summed squared deviations at row `r`. -/
theorem pay16_apply (r : Fin 1000) :
    k0_pay16 (F := Ideal) x0 (ix2 r (0 : Fin 1)) = ∑ j : Fin 256, (ksr x0 r j - Cert.Spec.mu (ksr x0 r)) * (ksr x0 r j - Cert.Spec.mu (ksr x0 r)) := by
  unfold k0_pay16
  rw [shapeCast_a_a1_apply _ _ r 0, rowsum_apply]
  refine Finset.sum_congr rfl fun j _ => ?_
  rw [mulf_apply, subf_apply, broadcastTo_a1_ab_apply _ _ r j, pay15_apply]
  rfl

end Cert.KernelIdeal.KRead

end
-- ==== Proof.KCtx.lean ====
/-
  The idealized kernel's block, read one row at a time (third part): the gated two-layer network.  At row `r` the
  layer norm of the scalar row beside the norm row, through `W1` with its bias, gated by x · logistic x, through
  `W2` with its bias, is the specification's `ctx` of that atom (the two changes of float format are the identity).
-/
import proofs.«137212_j88897233093049_2_alg».proof.Proof.KStats

noncomputable section

namespace Cert.KernelIdeal.KRead

open Cert.KernelIdeal Cert.KernelIdeal.Gen Idealize.ShloMosaic Idealize.ShloMosaic.TcCoe Idealize.ShloMosaic.ValueIdx

variable [Cert.KernelIdeal.Facts]
open Cert.LibKeepdims Cert.LibCatCols Cert.Spec

variable (x0 : Vec Ideal S1000x256 .f32) (x1 : Vec Ideal S1000x768 .f32) (x2 x3 : Vec Ideal S256 .f32) (x4 : Vec Ideal S256x512 .f32)
  (x5 : Vec Ideal S512x256 .bf16) (x6 : Vec Ideal S256 .f32) (x7 : Vec Ideal S256x768 .bf16) (x8 : Vec Ideal S768 .f32)

local notation "W" => kw x2 x3 x4 x5 x6 x7 x8

/-- The network's output at row `r`, column `q`, from what the block's row holds. -/
theorem pay17_apply (sr : Fin 256 → EReal) (vr : Fin 3 → Fin 256 → EReal)
    (v33 : FVec Ideal S1000x256 .f32) (v37 v42 : FVec Ideal S1000x1 .f32) (r : Fin 1000)
    (hs : ∀ j, x0 (ix2 r j) = sr j) (h33 : ∀ j, v33 (ix2 r j) = nrm W vr j)
    (h37 : v37 (ix2 r (0 : Fin 1)) = mu sr)
    (h42 : v42 (ix2 r (0 : Fin 1)) = ∑ j : Fin 256, (sr j - mu sr) * (sr j - mu sr)) (q : Fin 768) :
    k0_pay17 (F := Ideal) x0 v33 v37 v42 (Scalar.ofBits .f32 0x43800000#32) x2 x3 x5 x6 x7 x8 (ix2 r q) = ctx W sr vr q := by
  unfold k0_pay17
  rw [addf_apply]
  refine congrArg₂ (· + ·) ((Cert.KernelIdeal.KMatmul.mm_w2 _ _ none r q).trans (Finset.sum_congr rfl fun j _ => ?_)) (rowdims_apply x8 _ _ r q)
  rw [truncf_apply, mulf_apply, logistic_apply]
  refine congrArg₂ (· * ·) (congrArg₂ (fun a b => a * Ideal.logistic b) ?_ ?_) (congrFun (shapeCast_self x7 _) _)
  all_goals
    rw [addf_apply]
    refine congrArg₂ (· + ·) ((Cert.KernelIdeal.KMatmul.mm_w1 _ _ none r j).trans (Finset.sum_congr rfl fun k _ => ?_)) (rowdims_apply x6 _ _ r j)
    rw [truncf_apply]
    refine congrArg₂ (· * ·) ((cat2_cols_apply (b := 256) rfl _ _ _ r k).trans ?_) (congrFun (shapeCast_self x5 _) _)
    unfold cin
    by_cases hk : k.val < 256
    · rw [dif_pos hk, dif_pos hk]
      rw [addf_apply, mulf_apply, mulf_apply, subf_apply, broadcastTo_a1_ab_apply, broadcastTo_a1_ab_apply, rsqrt_apply, addf_apply,
        divf_apply, broadcast_apply, broadcast_apply, rowdims_apply, rowdims_apply, hs, h37, h42]
      rfl
    · rw [dif_neg hk, dif_neg hk]
      exact h33 _

end Cert.KernelIdeal.KRead

end
-- ==== Proof.KOut.lean ====
/-
  The idealized kernel's block, read one row at a time (last part): the two stores.  The scalar output block holds,
  at row `r`, the specification's `sOut` of that atom; the flat vector output block holds, at row `r` and column
  256·d + j, the specification's `vOut d j` (the gate's last 256 outputs are tiled over the three components, the
  three `U` images are laid side by side).
-/
import proofs.«137212_j88897233093049_2_alg».proof.Proof.KCtx
import proofs.«137212_j88897233093049_2_alg».proof.Proof.Gen.KernelIdeal.Frame

noncomputable section

namespace Cert.KernelIdeal.KRead

open Cert.KernelIdeal Cert.KernelIdeal.Gen Idealize.ShloMosaic Idealize.ShloMosaic.TcCoe Idealize.ShloMosaic.ValueIdx

variable [Cert.KernelIdeal.Facts]
open Cert.LibKeepdims Cert.LibCatCols Cert.Spec

variable (x0 : Vec Ideal S1000x256 .f32) (x1 : Vec Ideal S1000x768 .f32) (x2 x3 : Vec Ideal S256 .f32) (x4 : Vec Ideal S256x512 .f32)
  (x5 : Vec Ideal S512x256 .bf16) (x6 : Vec Ideal S256 .f32) (x7 : Vec Ideal S256x768 .bf16) (x8 : Vec Ideal S768 .f32)

local notation "W" => kw x2 x3 x4 x5 x6 x7 x8

/-- The scalar output's payload at row `r`. -/
theorem pay18_apply (sr : Fin 256 → EReal) (vr : Fin 3 → Fin 256 → EReal)
    (v28 v33 : FVec Ideal S1000x256 .f32) (v37 v42 : FVec Ideal S1000x1 .f32) (r : Fin 1000)
    (hs : ∀ j, x0 (ix2 r j) = sr j) (h33 : ∀ j, v33 (ix2 r j) = nrm W vr j)
    (h37 : v37 (ix2 r (0 : Fin 1)) = mu sr)
    (h42 : v42 (ix2 r (0 : Fin 1)) = ∑ j : Fin 256, (sr j - mu sr) * (sr j - mu sr))
    (h28 : ∀ j, v28 (ix2 r j) = dotuv W vr j) (j : Fin 256) :
    k0_pay18 (F := Ideal) x0 v28 v33 v37 v42 (Scalar.ofBits .f32 0x43800000#32) x2 x3 x5 x6 x7 x8 (ix2 r j) = sOut W sr vr j := by
  unfold k0_pay18
  rw [addf_apply, addf_apply, mulf_apply]
  refine congrArg₂ (· + ·) (congrArg₂ (· + ·) (hs j) ?_) (congrArg₂ (· * ·) ?_ (h28 j))
  · refine (slice2_axis1_apply (n1 := 768) 0 (k0_pay17 (F := Ideal) x0 v33 v37 v42 (Scalar.ofBits .f32 0x43800000#32) x2 x3 x5 x6 x7 x8) _ r j ⟨j.val, by have := j.isLt; omega⟩ (Nat.zero_add _).symm).trans ?_
    exact pay17_apply x0 x2 x3 x4 x5 x6 x7 x8 sr vr v33 v37 v42 r hs h33 h37 h42 _
  · refine (slice2_axis1_apply (n1 := 768) 256 (k0_pay17 (F := Ideal) x0 v33 v37 v42 (Scalar.ofBits .f32 0x43800000#32) x2 x3 x5 x6 x7 x8) _ r j ⟨256 + j.val, by have := j.isLt; omega⟩ rfl).trans ?_
    exact pay17_apply x0 x2 x3 x4 x5 x6 x7 x8 sr vr v33 v37 v42 r hs h33 h37 h42 _

/-- The vector output's product term at row `r`, column 256·d + j. -/
theorem pay19_apply (sr : Fin 256 → EReal) (vr : Fin 3 → Fin 256 → EReal)
    (v9 v17 v25 v33 : FVec Ideal S1000x256 .f32) (v37 v42 : FVec Ideal S1000x1 .f32) (r : Fin 1000)
    (hs : ∀ j, x0 (ix2 r j) = sr j) (h33 : ∀ j, v33 (ix2 r j) = nrm W vr j)
    (h37 : v37 (ix2 r (0 : Fin 1)) = mu sr)
    (h42 : v42 (ix2 r (0 : Fin 1)) = ∑ j : Fin 256, (sr j - mu sr) * (sr j - mu sr))
    (h9 : ∀ j, v9 (ix2 r j) = Uv W vr 0 j) (h17 : ∀ j, v17 (ix2 r j) = Uv W vr 1 j) (h25 : ∀ j, v25 (ix2 r j) = Uv W vr 2 j)
    (d : Fin 3) (j : Fin 256) :
    k0_pay19 (F := Ideal) x0 v9 v17 v25 v33 v37 v42 (Scalar.ofBits .f32 0x43800000#32) x2 x3 x5 x6 x7 x8
        (ix2 r (⟨256 * d.val + j.val, by have := d.isLt; have := j.isLt; omega⟩ : Fin 768))
      = ctx W sr vr ⟨512 + j.val, by have := j.isLt; omega⟩ * Uv W vr d j := by
  unfold k0_pay19
  rw [mulf_apply]
  have h81 : extractStridedSlice S1000x256 ![0, 512] (k0_pay17 (F := Ideal) x0 v33 v37 v42 (Scalar.ofBits .f32 0x43800000#32) x2 x3 x5 x6 x7 x8) slices_S1000x768_o0_512_S1000x256 (ix2 r j)
      = ctx W sr vr ⟨512 + j.val, by have := j.isLt; omega⟩ :=
    (slice2_axis1_apply (n1 := 768) 512 (k0_pay17 (F := Ideal) x0 v33 v37 v42 (Scalar.ofBits .f32 0x43800000#32) x2 x3 x5 x6 x7 x8) _ r j ⟨512 + j.val, by have := j.isLt; omega⟩ rfl).trans
      (pay17_apply x0 x2 x3 x4 x5 x6 x7 x8 sr vr v33 v37 v42 r hs h33 h37 h42 _)
  match d with
  | ⟨0, _⟩ =>
    exact congrArg₂ (· * ·) ((cat3_cols_0 _ _ _ _ r _ j (by simp)).trans h81) ((cat3_cols_0 _ _ _ _ r _ j (by simp)).trans (h9 j))
  | ⟨1, _⟩ =>
    exact congrArg₂ (· * ·) ((cat3_cols_1 _ _ _ _ r _ j (by simp)).trans h81) ((cat3_cols_1 _ _ _ _ r _ j (by simp)).trans (h17 j))
  | ⟨2, _⟩ =>
    exact congrArg₂ (· * ·) ((cat3_cols_2 _ _ _ _ r _ j (by simp)).trans h81) ((cat3_cols_2 _ _ _ _ r _ j (by simp)).trans (h25 j))

theorem hz2 : (![0, 0] : Fin 2 → Nat) = fun _ => 0 := funext fun a => by fin_cases a <;> rfl
theorem hz1 : (![0] : Fin 1 → Nat) = fun _ => 0 := funext fun a => by fin_cases a; rfl

/-- What the body leaves in the scalar output's buffer, at row `r`. -/
theorem out9_apply (r : Fin 1000) (j : Fin 256) :
    out0_9 (F := Ideal) x0 x1 x2 x3 x4 x5 x6 x7 x8 (ix2 r j) = sOut W (ksr x0 r) (kvr x1 r) j := by
  unfold out0_9
  rw [View.canon_unit_zero hz2]
  simp only [View.ld_unit_zero (S := S1000x256) hz2, View.ld_unit_zero (S := S1000x768) hz2, View.ld_unit_zero (S := S256x512) hz2,
    View.ld_unit_zero (S := S512x256) hz2, View.ld_unit_zero (S := S256x768) hz2, View.ld_unit_zero (S := S256) hz1, View.ld_unit_zero (S := S768) hz1]
  exact pay18_apply x0 x2 x3 x4 x5 x6 x7 x8 (ksr x0 r) (kvr x1 r) _ _ _ _ r (fun _ => rfl)
    (pay14_apply x1 x2 x3 x4 x5 x6 x7 x8 r) (pay15_apply x0 r) (pay16_apply x0 r) (pay13_apply x1 x2 x3 x4 x5 x6 x7 x8 r) j

/-- What the body leaves in the flat vector output's buffer, at row `r`, column 256·d + j. -/
theorem out10_apply (r : Fin 1000) (d : Fin 3) (j : Fin 256) :
    out0_10 (F := Ideal) x0 x1 x2 x3 x4 x5 x6 x7 x8 (ix2 r (⟨256 * d.val + j.val, by have := d.isLt; have := j.isLt; omega⟩ : Fin 768))
      = vOut W (ksr x0 r) (kvr x1 r) d j := by
  unfold out0_10
  rw [View.canon_unit_zero hz2]
  simp only [View.ld_unit_zero (S := S1000x256) hz2, View.ld_unit_zero (S := S1000x768) hz2, View.ld_unit_zero (S := S256x512) hz2,
    View.ld_unit_zero (S := S512x256) hz2, View.ld_unit_zero (S := S256x768) hz2, View.ld_unit_zero (S := S256) hz1, View.ld_unit_zero (S := S768) hz1]
  unfold k0_pay1 k0_pay2
  rw [addf_apply, shapeCast_self]
  exact congrArg (kvr x1 r d j + ·) (pay19_apply x0 x2 x3 x4 x5 x6 x7 x8 (ksr x0 r) (kvr x1 r) _ _ _ _ _ _ r (fun _ => rfl)
    (pay14_apply x1 x2 x3 x4 x5 x6 x7 x8 r) (pay15_apply x0 r) (pay16_apply x0 r)
    (pay5_apply x1 x2 x3 x4 x5 x6 x7 x8 r) (pay8_apply x1 x2 x3 x4 x5 x6 x7 x8 r) (pay11_apply x1 x2 x3 x4 x5 x6 x7 x8 r) d j)

end Cert.KernelIdeal.KRead

end
-- ==== Proof.Rows.lean ====
/-
  The specification over whole arrays.  The ten argument arrays, as functions of their indices, give the weights, each
  atom's scalar row and its three vector rows; the two results are the specification's rows laid out atom by atom —
  the vector result also in the flat layout, where component `d`, channel `j` sits in column 256·d + j.
-/
import proofs.«137212_j88897233093049_2_alg».proof.Proof.Spec
import Idealize.ShloMosaic.Lib.ValueIdx

noncomputable section

namespace Cert.Spec

open Idealize.ShloMosaic Idealize.ShloMosaic.ValueIdx

variable (a0 : (⟨2, ![100000, 256]⟩ : Shape).Idx → EReal) (a1 : (⟨3, ![100000, 3, 256]⟩ : Shape).Idx → EReal)
  (a2 a3 : (⟨1, ![256]⟩ : Shape).Idx → EReal) (a4 a5 : (⟨2, ![256, 256]⟩ : Shape).Idx → EReal)
  (a6 : (⟨2, ![512, 256]⟩ : Shape).Idx → EReal) (a7 : (⟨1, ![256]⟩ : Shape).Idx → EReal)
  (a8 : (⟨2, ![256, 768]⟩ : Shape).Idx → EReal) (a9 : (⟨1, ![768]⟩ : Shape).Idx → EReal)

/-- The weights held by the last eight arguments. -/
def wtsOf : Wts where
  U k j := a4 (ix2 k j)
  V k j := a5 (ix2 k j)
  γ j := a2 (ix1 j)
  β j := a3 (ix1 j)
  W1 k j := a6 (ix2 k j)
  b1 j := a7 (ix1 j)
  W2 k q := a8 (ix2 k q)
  b2 q := a9 (ix1 q)

/-- Atom `n`'s scalar row. -/
def srOf (n : Fin 100000) : Fin 256 → EReal := fun j => a0 (ix2 n j)
/-- Atom `n`'s three vector rows. -/
def vrOf (n : Fin 100000) : Fin 3 → Fin 256 → EReal := fun d k => a1 (ix3 n d k)

/-- The scalar result, atom by atom. -/
def sRes : (⟨2, ![100000, 256]⟩ : Shape).Idx → EReal := fun i =>
  sOut (wtsOf a2 a3 a4 a5 a6 a7 a8 a9) (srOf a0 ⟨(i 0).val, (i 0).isLt⟩) (vrOf a1 ⟨(i 0).val, (i 0).isLt⟩) ⟨(i 1).val, (i 1).isLt⟩
/-- The vector result, atom by atom. -/
def vRes : (⟨3, ![100000, 3, 256]⟩ : Shape).Idx → EReal := fun i =>
  vOut (wtsOf a2 a3 a4 a5 a6 a7 a8 a9) (srOf a0 ⟨(i 0).val, (i 0).isLt⟩) (vrOf a1 ⟨(i 0).val, (i 0).isLt⟩) ⟨(i 1).val, (i 1).isLt⟩ ⟨(i 2).val, (i 2).isLt⟩
/-- The vector result in the flat layout. -/
def vFlat : (⟨2, ![100000, 768]⟩ : Shape).Idx → EReal := fun i =>
  vOut (wtsOf a2 a3 a4 a5 a6 a7 a8 a9) (srOf a0 ⟨(i 0).val, (i 0).isLt⟩) (vrOf a1 ⟨(i 0).val, (i 0).isLt⟩)
    ⟨(i 1).val / 256, by have h : (i 1).val < 768 := (i 1).isLt; omega⟩ ⟨(i 1).val % 256, Nat.mod_lt _ (by norm_num)⟩

end Cert.Spec

end
-- ==== Proof.KFinal.lean ====
/-
  From blocks to arrays.  Grid point `t` works on atoms 1000·t … 1000·t + 999: its scalar and vector windows hold
  those rows of the scalar argument and of the flat view of the vector argument (row `n`, column 256·d + k of the flat
  view is entry (n, d, k)), the weight windows hold the whole weights (the fused weight is `U` beside `V`; the two
  narrowed weights are the arguments themselves on the extended reals).  So what point `t` writes back is block `t`
  of the specification's results; the hundred blocks tile both result arrays; and the closing reshape of the flat
  vector result is the specification's vector result.
-/
import proofs.«137212_j88897233093049_2_alg».proof.Proof.KOut
import proofs.«137212_j88897233093049_2_alg».proof.Proof.Rows
import Idealize.ShloMosaic.Lib.StableHlo.Run

noncomputable section

namespace Cert.KernelIdeal.KFinal

open Cert.KernelIdeal Cert.KernelIdeal.Gen Cert.KernelIdeal.KRead Cert.Spec Cert.LibCatCols
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The argument arrays on core `c` -/
abbrev M0 (c : Dev nD) : S100000x256.Idx → EReal := m ((c : Thread nD τ).loc main_arg0)
abbrev M1 (c : Dev nD) : S100000x3x256.Idx → EReal := m ((c : Thread nD τ).loc main_arg1)
abbrev M2 (c : Dev nD) : S256.Idx → EReal := m ((c : Thread nD τ).loc main_arg2)
abbrev M3 (c : Dev nD) : S256.Idx → EReal := m ((c : Thread nD τ).loc main_arg3)
abbrev M4 (c : Dev nD) : S256x256.Idx → EReal := m ((c : Thread nD τ).loc main_arg4)
abbrev M5 (c : Dev nD) : S256x256.Idx → EReal := m ((c : Thread nD τ).loc main_arg5)
abbrev M6 (c : Dev nD) : S512x256.Idx → EReal := m ((c : Thread nD τ).loc main_arg6)
abbrev M7 (c : Dev nD) : S256.Idx → EReal := m ((c : Thread nD τ).loc main_arg7)
abbrev M8 (c : Dev nD) : S256x768.Idx → EReal := m ((c : Thread nD τ).loc main_arg8)
abbrev M9 (c : Dev nD) : S768.Idx → EReal := m ((c : Thread nD τ).loc main_arg9)

/-! ## The arrays the host lines before the region write -/

theorem V_v0 (c : Dev nD) : (V m c main_v0 : S100000x768.Idx → EReal) = shapeCast S100000x768 (M1 m c) shapeCasts_S100000x3x256_S100000x768 := by
  show StableHlo.after hostOps0 (fun b => m (c, b)) (Proc.devRef .tc main_v0) = _
  after_results
  try rfl
theorem V_v1 (c : Dev nD) : (V m c main_v1 : S256x512.Idx → EReal)
    = concatenate S256x512 1 [⟨S256x256, M4 m c⟩, ⟨S256x256, M5 m c⟩] concatenates_S256x256_S256x256_S256x512_d1 := by
  show StableHlo.after hostOps0 (fun b => m (c, b)) (Proc.devRef .tc main_v1) = _
  after_results
  try rfl
theorem V_v2 (c : Dev nD) : (V m c main_v2 : S512x256.Idx → EReal) = M6 m c := by
  show StableHlo.after hostOps0 (fun b => m (c, b)) (Proc.devRef .tc main_v2) = _
  after_results
  try rfl
theorem V_v3 (c : Dev nD) : (V m c main_v3 : S256x768.Idx → EReal) = M8 m c := by
  show StableHlo.after hostOps0 (fun b => m (c, b)) (Proc.devRef .tc main_v3) = _
  after_results
  try rfl

/-! ## The index maps over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem t_lt (t : Fin cfg0.N) : t.val < 100 := lt_of_lt_of_eq t.isLt N_0

/-- The first atom of point `t`'s block plus `r`. -/
abbrev atom (t : Fin cfg0.N) (r : Fin 1000) : Fin 100000 := ⟨1000 * t.val + r.val, by have := t_lt t; have := r.isLt; omega⟩

/-! ## Where a block's entries sit in its array -/

theorem emb0 (t : Fin cfg0.N) (r : Fin 1000) (j : Fin 256) :
    ((cfg0.win 0).blk t).view.emb (ix2 r j) = ix2 (atom t r) j := by
  obtain ⟨f0_0, f0_1, -, -, -, -, -, -, -, -, -, -, -, -, -, -, -, -⟩ := idx_facts t
  funext a
  apply Fin.ext
  match a with
  | ⟨0, _⟩ => show win0_0.index t (0 : Fin 2) * 1000 + 1 * r.val = 1000 * t.val + r.val; omega
  | ⟨1, _⟩ => show win0_0.index t (1 : Fin 2) * 256 + 1 * j.val = j.val; omega
theorem emb1 (t : Fin cfg0.N) (r : Fin 1000) (j : Fin 768) :
    ((cfg0.win 1).blk t).view.emb (ix2 r j) = ix2 (atom t r) j := by
  obtain ⟨-, -, f1_0, f1_1, -, -, -, -, -, -, -, -, -, -, -, -, -, -⟩ := idx_facts t
  funext a
  apply Fin.ext
  match a with
  | ⟨0, _⟩ => show win0_1.index t (0 : Fin 2) * 1000 + 1 * r.val = 1000 * t.val + r.val; omega
  | ⟨1, _⟩ => show win0_1.index t (1 : Fin 2) * 768 + 1 * j.val = j.val; omega
theorem emb2 (t : Fin cfg0.N) (j : Fin 256) : ((cfg0.win 2).blk t).view.emb (ix1 j) = ix1 j := by
  obtain ⟨-, -, -, -, f2_0, -, -, -, -, -, -, -, -, -, -, -, -, -⟩ := idx_facts t
  funext a
  apply Fin.ext
  match a with
  | ⟨0, _⟩ => show win0_2.index t (0 : Fin 1) * 256 + 1 * j.val = j.val; omega
theorem emb3 (t : Fin cfg0.N) (j : Fin 256) : ((cfg0.win 3).blk t).view.emb (ix1 j) = ix1 j := by
  obtain ⟨-, -, -, -, -, f3_0, -, -, -, -, -, -, -, -, -, -, -, -⟩ := idx_facts t
  funext a
  apply Fin.ext
  match a with
  | ⟨0, _⟩ => show win0_3.index t (0 : Fin 1) * 256 + 1 * j.val = j.val; omega
theorem emb4 (t : Fin cfg0.N) (r : Fin 256) (j : Fin 512) :
    ((cfg0.win 4).blk t).view.emb (ix2 r j) = ix2 r j := by
  obtain ⟨-, -, -, -, -, -, f4_0, f4_1, -, -, -, -, -, -, -, -, -, -⟩ := idx_facts t
  funext a
  apply Fin.ext
  match a with
  | ⟨0, _⟩ => show win0_4.index t (0 : Fin 2) * 256 + 1 * r.val = r.val; omega
  | ⟨1, _⟩ => show win0_4.index t (1 : Fin 2) * 512 + 1 * j.val = j.val; omega
theorem emb5 (t : Fin cfg0.N) (r : Fin 512) (j : Fin 256) :
    ((cfg0.win 5).blk t).view.emb (ix2 r j) = ix2 r j := by
  obtain ⟨-, -, -, -, -, -, -, -, f5_0, f5_1, -, -, -, -, -, -, -, -⟩ := idx_facts t
  funext a
  apply Fin.ext
  match a with
  | ⟨0, _⟩ => show win0_5.index t (0 : Fin 2) * 512 + 1 * r.val = r.val; omega
  | ⟨1, _⟩ => show win0_5.index t (1 : Fin 2) * 256 + 1 * j.val = j.val; omega
theorem emb6 (t : Fin cfg0.N) (j : Fin 256) : ((cfg0.win 6).blk t).view.emb (ix1 j) = ix1 j := by
  obtain ⟨-, -, -, -, -, -, -, -, -, -, f6_0, -, -, -, -, -, -, -⟩ := idx_facts t
  funext a
  apply Fin.ext
  match a with
  | ⟨0, _⟩ => show win0_6.index t (0 : Fin 1) * 256 + 1 * j.val = j.val; omega
theorem emb7 (t : Fin cfg0.N) (r : Fin 256) (j : Fin 768) :
    ((cfg0.win 7).blk t).view.emb (ix2 r j) = ix2 r j := by
  obtain ⟨-, -, -, -, -, -, -, -, -, -, -, f7_0, f7_1, -, -, -, -, -⟩ := idx_facts t
  funext a
  apply Fin.ext
  match a with
  | ⟨0, _⟩ => show win0_7.index t (0 : Fin 2) * 256 + 1 * r.val = r.val; omega
  | ⟨1, _⟩ => show win0_7.index t (1 : Fin 2) * 768 + 1 * j.val = j.val; omega
theorem emb8 (t : Fin cfg0.N) (j : Fin 768) : ((cfg0.win 8).blk t).view.emb (ix1 j) = ix1 j := by
  obtain ⟨-, -, -, -, -, -, -, -, -, -, -, -, -, f8_0, -, -, -, -⟩ := idx_facts t
  funext a
  apply Fin.ext
  match a with
  | ⟨0, _⟩ => show win0_8.index t (0 : Fin 1) * 768 + 1 * j.val = j.val; omega
theorem emb9 (t : Fin cfg0.N) (r : Fin 1000) (j : Fin 256) :
    ((cfg0.win 9).blk t).view.emb (ix2 r j) = ix2 (atom t r) j := by
  obtain ⟨-, -, -, -, -, -, -, -, -, -, -, -, -, -, f9_0, f9_1, -, -⟩ := idx_facts t
  funext a
  apply Fin.ext
  match a with
  | ⟨0, _⟩ => show win0_9.index t (0 : Fin 2) * 1000 + 1 * r.val = 1000 * t.val + r.val; omega
  | ⟨1, _⟩ => show win0_9.index t (1 : Fin 2) * 256 + 1 * j.val = j.val; omega
theorem emb10 (t : Fin cfg0.N) (r : Fin 1000) (j : Fin 768) :
    ((cfg0.win 10).blk t).view.emb (ix2 r j) = ix2 (atom t r) j := by
  obtain ⟨-, -, -, -, -, -, -, -, -, -, -, -, -, -, -, -, f10_0, f10_1⟩ := idx_facts t
  funext a
  apply Fin.ext
  match a with
  | ⟨0, _⟩ => show win0_10.index t (0 : Fin 2) * 1000 + 1 * r.val = 1000 * t.val + r.val; omega
  | ⟨1, _⟩ => show win0_10.index t (1 : Fin 2) * 768 + 1 * j.val = j.val; omega

/-! ## The input blocks -/

theorem iblk0_apply (c : Dev nD) (t : Fin cfg0.N) (r : Fin 1000) (j : Fin 256) :
    iblk m c 0 t (ix2 r j) = M0 m c (ix2 (atom t r) j) := by
  show V m c main_arg0 (((cfg0.win 0).blk t).view.emb (ix2 r j)) = _
  exact (congrArg (V m c main_arg0) (emb0 t r j)).trans (by rw [V_main_arg0])

theorem iblk1_apply (c : Dev nD) (t : Fin cfg0.N) (r : Fin 1000) (d : Fin 3) (k : Fin 256) :
    iblk m c 1 t (ix2 r (⟨256 * d.val + k.val, by have := d.isLt; have := k.isLt; omega⟩ : Fin 768)) = M1 m c (ix3 (atom t r) d k) := by
  show V m c main_v0 (((cfg0.win 1).blk t).view.emb (ix2 r (⟨256 * d.val + k.val, by have := d.isLt; have := k.isLt; omega⟩ : Fin 768))) = _
  refine (congrArg (V m c main_v0) (emb1 t r _)).trans ?_
  rw [V_v0]
  refine shapeCast_apply (M1 m c) _ _ (ix3 (atom t r) d k) ?_
  rw [Shape.rowMajor_val_two, Shape.rowMajor_val_three]
  show ((1000 * t.val + r.val) * 3 + d.val) * 256 + k.val = (1000 * t.val + r.val) * 768 + (256 * d.val + k.val)
  omega

theorem iblk2_apply (c : Dev nD) (t : Fin cfg0.N) (j : Fin 256) : iblk m c 2 t (ix1 j) = M2 m c (ix1 j) := by
  show V m c main_arg2 (((cfg0.win 2).blk t).view.emb (ix1 j)) = _
  exact (congrArg (V m c main_arg2) (emb2 t j)).trans (by rw [V_main_arg2])
theorem iblk3_apply (c : Dev nD) (t : Fin cfg0.N) (j : Fin 256) : iblk m c 3 t (ix1 j) = M3 m c (ix1 j) := by
  show V m c main_arg3 (((cfg0.win 3).blk t).view.emb (ix1 j)) = _
  exact (congrArg (V m c main_arg3) (emb3 t j)).trans (by rw [V_main_arg3])
theorem iblk6_apply (c : Dev nD) (t : Fin cfg0.N) (j : Fin 256) : iblk m c 6 t (ix1 j) = M7 m c (ix1 j) := by
  show V m c main_arg7 (((cfg0.win 6).blk t).view.emb (ix1 j)) = _
  exact (congrArg (V m c main_arg7) (emb6 t j)).trans (by rw [V_main_arg7])
theorem iblk8_apply (c : Dev nD) (t : Fin cfg0.N) (q : Fin 768) : iblk m c 8 t (ix1 q) = M9 m c (ix1 q) := by
  show V m c main_arg9 (((cfg0.win 8).blk t).view.emb (ix1 q)) = _
  exact (congrArg (V m c main_arg9) (emb8 t q)).trans (by rw [V_main_arg9])

theorem iblk4_apply (c : Dev nD) (t : Fin cfg0.N) (k : Fin 256) (j : Fin 512) :
    iblk m c 4 t (ix2 k j) = if hj : j.val < 256 then M4 m c (ix2 k ⟨j.val, hj⟩) else M5 m c (ix2 k ⟨j.val - 256, by have := j.isLt; omega⟩) := by
  show V m c main_v1 (((cfg0.win 4).blk t).view.emb (ix2 k j)) = _
  refine (congrArg (V m c main_v1) (emb4 t k j)).trans ?_
  rw [V_v1]
  exact cat2_cols_apply (b := 256) rfl _ _ _ k j
theorem iblk5_apply (c : Dev nD) (t : Fin cfg0.N) (k : Fin 512) (j : Fin 256) : iblk m c 5 t (ix2 k j) = M6 m c (ix2 k j) := by
  show V m c main_v2 (((cfg0.win 5).blk t).view.emb (ix2 k j)) = _
  exact (congrArg (V m c main_v2) (emb5 t k j)).trans (by rw [V_v2])
theorem iblk7_apply (c : Dev nD) (t : Fin cfg0.N) (k : Fin 256) (q : Fin 768) : iblk m c 7 t (ix2 k q) = M8 m c (ix2 k q) := by
  show V m c main_v3 (((cfg0.win 7).blk t).view.emb (ix2 k q)) = _
  exact (congrArg (V m c main_v3) (emb7 t k q)).trans (by rw [V_v3])

/-- The staged weights are the arguments' weights. -/
theorem kw_eq (c : Dev nD) (t : Fin cfg0.N) : kw (iblk m c 2 t) (iblk m c 3 t) (iblk m c 4 t) (iblk m c 5 t) (iblk m c 6 t) (iblk m c 7 t) (iblk m c 8 t) = wtsOf (M2 m c) (M3 m c) (M4 m c) (M5 m c) (M6 m c) (M7 m c) (M8 m c) (M9 m c) := by
  unfold kw wtsOf
  congr 1
  · funext k j; rw [iblk4_apply, dif_pos (show (⟨j.val, by have := j.isLt; omega⟩ : Fin 512).val < 256 from j.isLt)]
  · funext k j; rw [iblk4_apply, dif_neg (show ¬(⟨256 + j.val, by have := j.isLt; omega⟩ : Fin 512).val < 256 from by show ¬(256 + j.val < 256); omega)]
    exact congrArg (M5 m c) (congrArg (ix2 k) (Fin.ext (by show 256 + j.val - 256 = j.val; omega)))
  · funext j; exact iblk2_apply m c t j
  · funext j; exact iblk3_apply m c t j
  · funext k j; exact iblk5_apply m c t k j
  · funext j; exact iblk6_apply m c t j
  · funext k q; exact iblk7_apply m c t k q
  · funext q; exact iblk8_apply m c t q

theorem ksr_eq (c : Dev nD) (t : Fin cfg0.N) (r : Fin 1000) : ksr (iblk m c 0 t) r = srOf (M0 m c) (atom t r) :=
  funext fun j => iblk0_apply m c t r j
theorem kvr_eq (c : Dev nD) (t : Fin cfg0.N) (r : Fin 1000) : kvr (iblk m c 1 t) r = vrOf (M1 m c) (atom t r) :=
  funext fun d => funext fun k => iblk1_apply m c t r d k

/-! ## The scalar result array -/

theorem flushed9_eq (c : Dev nD) (t : Fin cfg0.N) :
    (dats m 0 c).flushed 9 t = ((cfg0.win 9).blk t).view.read (Elt Ideal) (sRes (M0 m c) (M1 m c) (M2 m c) (M3 m c) (M4 m c) (M5 m c) (M6 m c) (M7 m c) (M8 m c) (M9 m c)) := by
  show (cfg0.win 9).cut (grid0.coords t) ((dats m 0 c).after 9 t) = _
  rw [after0_9]
  funext y
  obtain ⟨r, j, rfl⟩ : ∃ (r : Fin 1000) (j : Fin 256), y = ix2 r j := ⟨y 0, y 1, eq_ix2 y⟩
  show out0_9 (iblk m c 0 t) (iblk m c 1 t) (iblk m c 2 t) (iblk m c 3 t) (iblk m c 4 t) (iblk m c 5 t) (iblk m c 6 t) (iblk m c 7 t) (iblk m c 8 t) (ix2 r j) = sRes (M0 m c) (M1 m c) (M2 m c) (M3 m c) (M4 m c) (M5 m c) (M6 m c) (M7 m c) (M8 m c) (M9 m c) (((cfg0.win 9).blk t).view.emb (ix2 r j))
  refine (out9_apply (iblk m c 0 t) (iblk m c 1 t) (iblk m c 2 t) (iblk m c 3 t) (iblk m c 4 t) (iblk m c 5 t) (iblk m c 6 t) (iblk m c 7 t) (iblk m c 8 t) r j).trans ?_
  rw [kw_eq m c t, ksr_eq m c t r, kvr_eq m c t r]
  exact (congrArg (sRes (M0 m c) (M1 m c) (M2 m c) (M3 m c) (M4 m c) (M5 m c) (M6 m c) (M7 m c) (M8 m c) (M9 m c)) (emb9 t r j)).symm

theorem mem_blk9 (t : Fin cfg0.N) (i : S100000x256.Idx) :
    i ∈ ((cfg0.win 9).blk t).view.set ↔ ∀ a : Fin 2, win0_9.index t a * S1000x256.size a ≤ (i a).val ∧ (i a).val < win0_9.index t a * S1000x256.size a + S1000x256.size a := by
  show i ∈ ((View.whole main_v4_0).slice (win0_9.rect t)).set ↔ _
  rw [View.set_slice_whole, Rect.mem_set_unit]
  exact Iff.rfl

theorem cover9 (i : S100000x256.Idx) : ∃ t : Fin cfg0.N, (cfg0.win 9).flush t = true ∧ i ∈ ((cfg0.win 9).blk t).view.set := by
  have hi0 : (i 0).val < 100000 := (i 0).isLt
  have hi1 : (i 1).val < 256 := (i 1).isLt
  let t : Fin cfg0.N := ⟨(i 0).val / 1000, by rw [show cfg0.N = 100 from N_0]; omega⟩
  refine ⟨t, flush0_9 t, ?_⟩
  obtain ⟨-, -, -, -, -, -, -, -, -, -, -, -, -, -, f9_0, f9_1, -, -⟩ := idx_facts t
  have ht : t.val = (i 0).val / 1000 := rfl
  rw [mem_blk9]
  intro a
  match a with
  | ⟨0, _⟩ => show win0_9.index t (0 : Fin 2) * 1000 ≤ (i 0).val ∧ (i 0).val < win0_9.index t (0 : Fin 2) * 1000 + 1000; omega
  | ⟨1, _⟩ => show win0_9.index t (1 : Fin 2) * 256 ≤ (i 1).val ∧ (i 1).val < win0_9.index t (1 : Fin 2) * 256 + 256; omega

theorem final9 (c : Dev nD) : (dats m 0 c).arrAt 9 cfg0.N = sRes (M0 m c) (M1 m c) (M2 m c) (M3 m c) (M4 m c) (M5 m c) (M6 m c) (M7 m c) (M8 m c) (M9 m c) :=
  (dats m 0 c).arrAt_eq_of_cover 9 (sRes (M0 m c) (M1 m c) (M2 m c) (M3 m c) (M4 m c) (M5 m c) (M6 m c) (M7 m c) (M8 m c) (M9 m c)) (fun t _ => flushed9_eq m c t) fun i => cover9 i

/-! ## The flat vector result array -/

theorem flushed10_eq (c : Dev nD) (t : Fin cfg0.N) :
    (dats m 0 c).flushed 10 t = ((cfg0.win 10).blk t).view.read (Elt Ideal) (vFlat (M0 m c) (M1 m c) (M2 m c) (M3 m c) (M4 m c) (M5 m c) (M6 m c) (M7 m c) (M8 m c) (M9 m c)) := by
  show (cfg0.win 10).cut (grid0.coords t) ((dats m 0 c).after 10 t) = _
  rw [after0_10]
  funext y
  obtain ⟨r, q, rfl⟩ : ∃ (r : Fin 1000) (q : Fin 768), y = ix2 r q := ⟨y 0, y 1, eq_ix2 y⟩
  have hq : q.val < 768 := q.isLt
  let d : Fin 3 := ⟨q.val / 256, by omega⟩
  let j : Fin 256 := ⟨q.val % 256, Nat.mod_lt _ (by norm_num)⟩
  have eq : q = (⟨256 * d.val + j.val, by have := d.isLt; have := j.isLt; omega⟩ : Fin 768) := Fin.ext (by show q.val = 256 * (q.val / 256) + q.val % 256; omega)
  show out0_10 (iblk m c 0 t) (iblk m c 1 t) (iblk m c 2 t) (iblk m c 3 t) (iblk m c 4 t) (iblk m c 5 t) (iblk m c 6 t) (iblk m c 7 t) (iblk m c 8 t) (ix2 r q) = vFlat (M0 m c) (M1 m c) (M2 m c) (M3 m c) (M4 m c) (M5 m c) (M6 m c) (M7 m c) (M8 m c) (M9 m c) (((cfg0.win 10).blk t).view.emb (ix2 r q))
  refine ((congrArg (fun q' => out0_10 (iblk m c 0 t) (iblk m c 1 t) (iblk m c 2 t) (iblk m c 3 t) (iblk m c 4 t) (iblk m c 5 t) (iblk m c 6 t) (iblk m c 7 t) (iblk m c 8 t) (ix2 r q')) eq).trans (out10_apply (iblk m c 0 t) (iblk m c 1 t) (iblk m c 2 t) (iblk m c 3 t) (iblk m c 4 t) (iblk m c 5 t) (iblk m c 6 t) (iblk m c 7 t) (iblk m c 8 t) r d j)).trans ?_
  rw [kw_eq m c t, ksr_eq m c t r, kvr_eq m c t r]
  exact (congrArg (vFlat (M0 m c) (M1 m c) (M2 m c) (M3 m c) (M4 m c) (M5 m c) (M6 m c) (M7 m c) (M8 m c) (M9 m c)) (emb10 t r q)).symm

theorem mem_blk10 (t : Fin cfg0.N) (i : S100000x768.Idx) :
    i ∈ ((cfg0.win 10).blk t).view.set ↔ ∀ a : Fin 2, win0_10.index t a * S1000x768.size a ≤ (i a).val ∧ (i a).val < win0_10.index t a * S1000x768.size a + S1000x768.size a := by
  show i ∈ ((View.whole main_v4_1).slice (win0_10.rect t)).set ↔ _
  rw [View.set_slice_whole, Rect.mem_set_unit]
  exact Iff.rfl

theorem cover10 (i : S100000x768.Idx) : ∃ t : Fin cfg0.N, (cfg0.win 10).flush t = true ∧ i ∈ ((cfg0.win 10).blk t).view.set := by
  have hi0 : (i 0).val < 100000 := (i 0).isLt
  have hi1 : (i 1).val < 768 := (i 1).isLt
  let t : Fin cfg0.N := ⟨(i 0).val / 1000, by rw [show cfg0.N = 100 from N_0]; omega⟩
  refine ⟨t, flush0_10 t, ?_⟩
  obtain ⟨-, -, -, -, -, -, -, -, -, -, -, -, -, -, -, -, f10_0, f10_1⟩ := idx_facts t
  have ht : t.val = (i 0).val / 1000 := rfl
  rw [mem_blk10]
  intro a
  match a with
  | ⟨0, _⟩ => show win0_10.index t (0 : Fin 2) * 1000 ≤ (i 0).val ∧ (i 0).val < win0_10.index t (0 : Fin 2) * 1000 + 1000; omega
  | ⟨1, _⟩ => show win0_10.index t (1 : Fin 2) * 768 ≤ (i 1).val ∧ (i 1).val < win0_10.index t (1 : Fin 2) * 768 + 768; omega

theorem final10 (c : Dev nD) : (dats m 0 c).arrAt 10 cfg0.N = vFlat (M0 m c) (M1 m c) (M2 m c) (M3 m c) (M4 m c) (M5 m c) (M6 m c) (M7 m c) (M8 m c) (M9 m c) :=
  (dats m 0 c).arrAt_eq_of_cover 10 (vFlat (M0 m c) (M1 m c) (M2 m c) (M3 m c) (M4 m c) (M5 m c) (M6 m c) (M7 m c) (M8 m c) (M9 m c)) (fun t _ => flushed10_eq m c t) fun i => cover10 i

/-! ## The closing reshape -/

/-- The flat vector result, reshaped, is the vector result. -/
theorem reshape_vFlat (c : Dev nD) :
    shapeCast S100000x3x256 (vFlat (M0 m c) (M1 m c) (M2 m c) (M3 m c) (M4 m c) (M5 m c) (M6 m c) (M7 m c) (M8 m c) (M9 m c)) shapeCasts_S100000x768_S100000x3x256 = vRes (M0 m c) (M1 m c) (M2 m c) (M3 m c) (M4 m c) (M5 m c) (M6 m c) (M7 m c) (M8 m c) (M9 m c) := by
  funext i
  obtain ⟨n, d, j, rfl⟩ : ∃ (n : Fin 100000) (d : Fin 3) (j : Fin 256), i = ix3 n d j := ⟨i 0, i 1, i 2, eq_ix3 i⟩
  refine (shapeCast_apply _ _ (ix3 n d j) (ix2 n (⟨256 * d.val + j.val, by have := d.isLt; have := j.isLt; omega⟩ : Fin 768)) ?_).trans ?_
  · rw [Shape.rowMajor_val_two, Shape.rowMajor_val_three]
    show n.val * 768 + (256 * d.val + j.val) = (n.val * 3 + d.val) * 256 + j.val
    omega
  · unfold vFlat vRes
    have hd := d.isLt
    have hj := j.isLt
    exact congrArg₂ (vOut _ _ _) (Fin.ext (by show (256 * d.val + j.val) / 256 = d.val; omega)) (Fin.ext (by show (256 * d.val + j.val) % 256 = j.val; omega))

theorem tail_v5 (c : Dev nD) :
    (Pipeline.afterTail₀ cfgs (dats m) 0 (V0 m) [hostOps1] c main_v5 : S100000x3x256.Idx → EReal) = vRes (M0 m c) (M1 m c) (M2 m c) (M3 m c) (M4 m c) (M5 m c) (M6 m c) (M7 m c) (M8 m c) (M9 m c) := by
  unfold Pipeline.afterTail₀
  show StableHlo.after hostOps1 _ (Proc.devRef .tc main_v5) = _
  after_results
  refine Eq.trans ?_ (reshape_vFlat m c)
  rw [← final10 m c, ← Pipeline.withArrays_arr spec0 launch0.win.arr_inj c (V0 m c) (fun w => (dats m 0 c).arrAt w (cfgs 0).N) 10]
  rfl

/-! ## The run -/

/-- Every weakly fair execution of the idealized kernel terminates with its two results at the specification's results
    of the argument arrays, which end unchanged. -/
theorem run : θ_run defs (onTc (τ := τ) (main (F := Ideal))) ⟨m, fun _ => 0, ρ⟩ fun r => ∀ c : Dev nD,
      r.2.mem ((c.tc : Thread nD τ).loc main_v4_0) = sRes (M0 m c) (M1 m c) (M2 m c) (M3 m c) (M4 m c) (M5 m c) (M6 m c) (M7 m c) (M8 m c) (M9 m c)
      ∧ r.2.mem ((c.tc : Thread nD τ).loc main_v5) = vRes (M0 m c) (M1 m c) (M2 m c) (M3 m c) (M4 m c) (M5 m c) (M6 m c) (M7 m c) (M8 m c) (M9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 9).trans (final9 m c),
      ((h c).2 main_v5 (Pipeline.mem_restRefs_of main_v5 (by decide) (by decide))).trans (tail_v5 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 6).trans (((dats m 0 c).arrAt_in 6 rfl _).trans ((A_eq m c 6).trans (V_main_arg7 m c))),
      ((h c).2 main_arg8 (Pipeline.mem_restRefs_of main_arg8 (by decide) (by decide))).trans (W_main_arg8 m (dats m) c),
      ((h c).1 8).trans (((dats m 0 c).arrAt_in 8 rfl _).trans ((A_eq m c 8).trans (V_main_arg9 m c)))⟩)
    (run_main m ρ)

end Cert.KernelIdeal.KFinal

end
-- ==== Proof.RRead.lean ====
/-
  The reference, read one atom at a time: at row `n` each of its stages is the specification's quantity of that atom —
  the two images of the vector rows, the norm, the mean and variance of the scalar row, its layer norm, the gated
  network (the host spells x · logistic x as x · (1 / (1 + exp (-x)))), and the two results.  The sums over the three
  components start from the zero constant; the specification's are the same three terms added in order.
-/
import proofs.«137212_j88897233093049_2_alg».proof.Proof.Gen.ReferenceIdeal.Read
import proofs.«137212_j88897233093049_2_alg».proof.Proof.Rows
import proofs.«137212_j88897233093049_2_alg».proof.Proof.LibCatCols
import Idealize.ShloMosaic.Lib.IdealHost

noncomputable section

namespace Cert.ReferenceIdeal.RRead

open Cert.ReferenceIdeal Cert.ReferenceIdeal.Gen Cert.ReferenceIdeal.Read Idealize.ShloMosaic Idealize.ShloMosaic.TcCoe Idealize.ShloMosaic.ValueIdx Cert.Spec

variable [Cert.ReferenceIdeal.Facts]

variable (a0 : (⟨S100000x256, .f32⟩ : BufTy).Contents (Elt Ideal)) (a1 : (⟨S100000x3x256, .f32⟩ : BufTy).Contents (Elt Ideal))
  (a2 a3 : (⟨S256, .f32⟩ : BufTy).Contents (Elt Ideal)) (a4 a5 : (⟨S256x256, .f32⟩ : BufTy).Contents (Elt Ideal))
  (a6 : (⟨S512x256, .f32⟩ : BufTy).Contents (Elt Ideal)) (a7 : (⟨S256, .f32⟩ : BufTy).Contents (Elt Ideal))
  (a8 : (⟨S256x768, .f32⟩ : BufTy).Contents (Elt Ideal)) (a9 : (⟨S768, .f32⟩ : BufTy).Contents (Elt Ideal))

local notation "RW" => wtsOf a2 a3 a4 a5 a6 a7 a8 a9

variable (n : Fin 100000)

/-! The generated index maps at explicit coordinates. -/
section idx
variable (j : Fin 256) (d : Fin 3) (k : Fin 256) (q : Fin 768) (u : Fin 1) (k5 : Fin 512)
theorem l0 : lidx_main_v0 (ix3 n d j) k = ix3 n d k :=
  funext fun a => by
    match a with
    | ⟨0, _⟩ => rfl
    | ⟨1, _⟩ => rfl
    | ⟨2, _⟩ => rfl
theorem r0 : ridx_main_v0 (ix3 n d j) k = ix2 k j :=
  funext fun a => by
    match a with
    | ⟨0, _⟩ => rfl
    | ⟨1, _⟩ => rfl
theorem l1 : lidx_main_v1 (ix3 n d j) k = ix3 n d k :=
  funext fun a => by
    match a with
    | ⟨0, _⟩ => rfl
    | ⟨1, _⟩ => rfl
    | ⟨2, _⟩ => rfl
theorem r1 : ridx_main_v1 (ix3 n d j) k = ix2 k j :=
  funext fun a => by
    match a with
    | ⟨0, _⟩ => rfl
    | ⟨1, _⟩ => rfl
theorem i3 : idx_main_v3 (ix2 n j) d = ix3 n d j :=
  funext fun a => by
    match a with
    | ⟨0, _⟩ => rfl
    | ⟨1, _⟩ => rfl
    | ⟨2, _⟩ => rfl
theorem i45 : idx_main_v45 (ix2 n j) d = ix3 n d j :=
  funext fun a => by
    match a with
    | ⟨0, _⟩ => rfl
    | ⟨1, _⟩ => rfl
    | ⟨2, _⟩ => rfl
theorem i7 : idx_main_v7 (idx_main_v8 (ix2 n u)) k = ix2 n k :=
  funext fun a => by
    match a with
    | ⟨0, _⟩ => rfl
    | ⟨1, _⟩ => rfl
theorem i14 : idx_main_v14 (idx_main_v15 (ix2 n u)) k = ix2 n k :=
  funext fun a => by
    match a with
    | ⟨0, _⟩ => rfl
    | ⟨1, _⟩ => rfl
theorem i11 : idx_main_v11 (ix2 n j) = ix2 n (0 : Fin 1) :=
  funext fun a => by
    match a with
    | ⟨0, _⟩ => rfl
    | ⟨1, _⟩ => rfl
theorem i18 : idx_main_v18 (ix2 n j) = ix2 n (0 : Fin 1) :=
  funext fun a => by
    match a with
    | ⟨0, _⟩ => rfl
    | ⟨1, _⟩ => rfl
theorem i23 : idx_main_v23 (ix2 n j) = ix2 n (0 : Fin 1) :=
  funext fun a => by
    match a with
    | ⟨0, _⟩ => rfl
    | ⟨1, _⟩ => rfl
theorem i25 : idx_main_v25 (idx_main_v26 (ix2 n j)) = ix1 j :=
  funext fun a => by
    match a with
    | ⟨0, _⟩ => rfl
theorem i28 : idx_main_v28 (idx_main_v29 (ix2 n j)) = ix1 j :=
  funext fun a => by
    match a with
    | ⟨0, _⟩ => rfl
theorem i33 : idx_main_v33 (idx_main_v34 (ix2 n j)) = ix1 j :=
  funext fun a => by
    match a with
    | ⟨0, _⟩ => rfl
theorem i38 : idx_main_v38 (idx_main_v39 (ix2 n q)) = ix1 q :=
  funext fun a => by
    match a with
    | ⟨0, _⟩ => rfl
theorem l32 : lidx_main_v32 (ix2 n j) k5 = ix2 n k5 :=
  funext fun a => by
    match a with
    | ⟨0, _⟩ => rfl
    | ⟨1, _⟩ => rfl
theorem r32 : ridx_main_v32 (ix2 n j) k5 = ix2 k5 j :=
  funext fun a => by
    match a with
    | ⟨0, _⟩ => rfl
    | ⟨1, _⟩ => rfl
theorem l37 : lidx_main_v37 (ix2 n q) k = ix2 n k :=
  funext fun a => by
    match a with
    | ⟨0, _⟩ => rfl
    | ⟨1, _⟩ => rfl
theorem r37 : ridx_main_v37 (ix2 n q) k = ix2 k q :=
  funext fun a => by
    match a with
    | ⟨0, _⟩ => rfl
    | ⟨1, _⟩ => rfl
theorem i41 : idx_main_v41 (ix2 n j) = ix2 n (⟨j.val, by have := j.isLt; omega⟩ : Fin 768) :=
  funext fun a => by
    match a with
    | ⟨0, _⟩ => rfl
    | ⟨1, _⟩ => rfl
theorem i42 : idx_main_v42 (ix2 n j) = ix2 n (⟨256 + j.val, by have := j.isLt; omega⟩ : Fin 768) :=
  funext fun a => by
    match a with
    | ⟨0, _⟩ => rfl
    | ⟨1, _⟩ => rfl
theorem i43 : idx_main_v43 (idx_main_v49 (idx_main_v50 (ix3 n d j))) = ix2 n (⟨512 + j.val, by have := j.isLt; omega⟩ : Fin 768) :=
  funext fun a => by
    match a with
    | ⟨0, _⟩ => rfl
    | ⟨1, _⟩ => rfl
end idx

/-- The two images of a vector row. -/
theorem v0_row (d : Fin 3) (j : Fin 256) : val_main_v0 (F := Ideal) a1 a4 (ix3 n d j) = Uv RW (vrOf a1 n) d j := by
  rw [val_main_v0_apply]
  exact Finset.sum_congr rfl fun k _ => by rw [l0, r0]; rfl
theorem v1_row (d : Fin 3) (j : Fin 256) : val_main_v1 (F := Ideal) a1 a5 (ix3 n d j) = Vv RW (vrOf a1 n) d j := by
  rw [val_main_v1_apply]
  exact Finset.sum_congr rfl fun k _ => by rw [l1, r1]; rfl

/-- The norm over the three components. -/
theorem v6_row (j : Fin 256) : val_main_v6 (F := Ideal) a1 a5 (ix2 n j) = nrm RW (vrOf a1 n) j := by
  rw [val_main_v6_apply, val_main_v5_apply, val_main_v3_apply, val_main_v4_apply, val_main_cst_apply, val_main_cst_0_apply, Fin.sum_univ_three]
  simp only [val_main_v2_apply, i3]
  rw [v1_row a1 a2 a3 a4 a5 a6 a7 a8 a9, v1_row a1 a2 a3 a4 a5 a6 a7 a8 a9, v1_row a1 a2 a3 a4 a5 a6 a7 a8 a9]
  show Ideal.sqrt (Ideal.ofBits .f32 0x00000000#32 + (_ + _ + _) + _) = _
  rw [Ideal.ofBits_zero_f32, zero_add]
  rfl

/-- The inner product over the three components. -/
theorem v45_row (j : Fin 256) : val_main_v45 (F := Ideal) a1 a4 a5 (ix2 n j) = dotuv RW (vrOf a1 n) j := by
  rw [val_main_v45_apply, val_main_cst_6_apply, Fin.sum_univ_three]
  simp only [val_main_v44_apply, i45]
  rw [v0_row a1 a2 a3 a4 a5 a6 a7 a8 a9, v0_row a1 a2 a3 a4 a5 a6 a7 a8 a9, v0_row a1 a2 a3 a4 a5 a6 a7 a8 a9,
    v1_row a1 a2 a3 a4 a5 a6 a7 a8 a9, v1_row a1 a2 a3 a4 a5 a6 a7 a8 a9, v1_row a1 a2 a3 a4 a5 a6 a7 a8 a9]
  show Ideal.ofBits .f32 0x00000000#32 + (_ + _ + _) = _
  rw [Ideal.ofBits_zero_f32, zero_add]
  rfl

/-- The mean column. -/
theorem v10_row (u : Fin 1) : val_main_v10 (F := Ideal) a0 (ix2 n u) = mu (srOf a0 n) := by
  rw [val_main_v10_apply, val_main_v8_apply, val_main_v9_apply, val_main_cst_2_apply, val_main_v7_apply, val_main_cst_1_apply]
  show Ideal.div (Ideal.ofBits .f32 0x00000000#32 + _) _ = _
  rw [Ideal.ofBits_zero_f32, zero_add]
  exact congrArg (Ideal.div · _) (Finset.sum_congr rfl fun k _ => by rw [i7]; rfl)

/-- The variance column. -/
theorem v17_row (u : Fin 1) : val_main_v17 (F := Ideal) a0 (ix2 n u) = var (srOf a0 n) := by
  rw [val_main_v17_apply, val_main_v15_apply, val_main_v16_apply, val_main_cst_4_apply, val_main_v14_apply, val_main_cst_3_apply]
  show Ideal.div (Ideal.ofBits .f32 0x00000000#32 + _) _ = _
  rw [Ideal.ofBits_zero_f32, zero_add]
  refine congrArg (Ideal.div · _) (Finset.sum_congr rfl fun k _ => ?_)
  rw [i14, val_main_v13_apply, val_main_v12_apply, val_main_v11_apply, i11, v10_row]
  rfl

/-- The layer norm of the scalar row. -/
theorem v30_row (j : Fin 256) : val_main_v30 (F := Ideal) a0 a2 a3 (ix2 n j) = sn RW (srOf a0 n) j := by
  rw [val_main_v30_apply, val_main_v27_apply, val_main_v24_apply, val_main_v19_apply, val_main_v18_apply, i18, v10_row,
    val_main_v23_apply, i23, val_main_v22_apply, val_main_v21_apply, v17_row, val_main_v20_apply, val_main_cst_5_apply,
    val_main_v26_apply, val_main_v25_apply, i25, val_main_v29_apply, val_main_v28_apply, i28]
  rfl

/-- The hidden layer before its gate. -/
theorem v35_row (j : Fin 256) : val_main_v35 (F := Ideal) a0 a1 a2 a3 a5 a6 a7 (ix2 n j) = hid RW (srOf a0 n) (vrOf a1 n) j := by
  rw [val_main_v35_apply, val_main_v32_apply, val_main_v34_apply, val_main_v33_apply, i33]
  refine congrArg₂ (· + ·) (Finset.sum_congr rfl fun k _ => ?_) rfl
  rw [l32, r32]
  refine congrArg₂ (· * ·) ?_ rfl
  unfold val_main_v31
  refine (Cert.LibCatCols.cat2_cols_apply (b := 256) rfl _ _ _ n k).trans ?_
  unfold cin
  by_cases hk : k.val < 256
  · rw [dif_pos hk, dif_pos hk]; exact v30_row a0 a2 a3 a4 a5 a6 a7 a8 a9 n _
  · rw [dif_neg hk, dif_neg hk]; exact v6_row a1 a2 a3 a4 a5 a6 a7 a8 a9 n _

/-- The gate. -/
theorem v36_row (j : Fin 256) : val_main_v36 (F := Ideal) a0 a1 a2 a3 a5 a6 a7 (ix2 n j) = act RW (srOf a0 n) (vrOf a1 n) j := by
  rw [val_main_v36_apply, val_main_call0_v5_apply, val_main_call0_v4_apply, val_main_call0_cst_0_apply, val_main_call0_v3_apply,
    val_main_call0_v2_apply, val_main_call0_cst_apply, val_main_call0_v1_apply, val_main_call0_v0_apply, v35_row]
  show _ * Ideal.div (Ideal.ofBits .f32 0x3F800000#32) (Ideal.ofBits .f32 0x3F800000#32 + Ideal.exp (-_)) = _
  rw [Ideal.ofBits_one_f32]
  rfl

/-- The network's outputs. -/
theorem v40_row (q : Fin 768) : val_main_v40 (F := Ideal) a0 a1 a2 a3 a5 a6 a7 a8 a9 (ix2 n q) = ctx RW (srOf a0 n) (vrOf a1 n) q := by
  rw [val_main_v40_apply, val_main_v37_apply, val_main_v39_apply, val_main_v38_apply, i38]
  refine congrArg₂ (· + ·) (Finset.sum_congr rfl fun k _ => ?_) rfl
  rw [l37, r37, v36_row]
  rfl

/-- The scalar result. -/
theorem v48_row (j : Fin 256) : val_main_v48 (F := Ideal) a0 a1 a2 a3 a4 a5 a6 a7 a8 a9 (ix2 n j) = sOut RW (srOf a0 n) (vrOf a1 n) j := by
  rw [val_main_v48_apply, val_main_v46_apply, val_main_v47_apply, val_main_v41_apply, val_main_v42_apply, i41, i42, v40_row, v40_row, v45_row]
  rfl

/-- The vector result. -/
theorem v52_row (d : Fin 3) (j : Fin 256) : val_main_v52 (F := Ideal) a0 a1 a2 a3 a4 a5 a6 a7 a8 a9 (ix3 n d j) = vOut RW (srOf a0 n) (vrOf a1 n) d j := by
  rw [val_main_v52_apply, val_main_v51_apply, val_main_v50_apply, val_main_v49_apply, val_main_v43_apply, i43, v40_row, v0_row]
  rfl

/-- The reference's first result is the specification's scalar result. -/
theorem v48_eq : val_main_v48 (F := Ideal) a0 a1 a2 a3 a4 a5 a6 a7 a8 a9 = sRes a0 a1 a2 a3 a4 a5 a6 a7 a8 a9 :=
  funext fun i => by
    obtain ⟨n, j, rfl⟩ : ∃ (n : Fin 100000) (j : Fin 256), i = ix2 n j := ⟨i 0, i 1, eq_ix2 i⟩
    exact v48_row a0 a1 a2 a3 a4 a5 a6 a7 a8 a9 n j

/-- Its second result is the specification's vector result. -/
theorem v52_eq : val_main_v52 (F := Ideal) a0 a1 a2 a3 a4 a5 a6 a7 a8 a9 = vRes a0 a1 a2 a3 a4 a5 a6 a7 a8 a9 :=
  funext fun i => by
    obtain ⟨n, d, j, rfl⟩ : ∃ (n : Fin 100000) (d : Fin 3) (j : Fin 256), i = ix3 n d j := ⟨i 0, i 1, i 2, eq_ix3 i⟩
    exact v52_row a0 a1 a2 a3 a4 a5 a6 a7 a8 a9 n d j

end Cert.ReferenceIdeal.RRead

end
-- ==== Proof.lean ====
/-
  The certificate of an equivariant message-passing update over 100000 atoms with 256 channels.

  Each atom has a scalar row and three vector rows.  The vector rows go through two 256 × 256 linear maps `U` and `V`;
  the channelwise inner product of the two images and the stabilized channelwise norm of the `V` image are taken over
  the three components; the scalar row is layer-normalized; the normalized row beside the norm row feeds a two-layer
  network gated by x · logistic x, whose 768 outputs are three gates: one added to the scalar row, one multiplying the
  inner product, one multiplying the `U` images that are added to the vector rows (Proof/Spec.lean).

  The kernel works on blocks of 1000 atoms, with the vector rows flattened to 768 columns, `U` and `V` fused into one
  256 × 512 weight, and the sums over the three components accumulated from a zero splat; the reference works on the
  whole arrays with a batched product and library sums.  On the extended reals both compute the specification atom by
  atom: a change of float format is the identity, a matrix product into a zero accumulator and the host's product are
  the same sums, the fused weight's two halves are `U` and `V`, the three-term sums differ only by the leading zero,
  and the host's expansion of the logistic function is the function itself.  No law used needs finiteness, so the
  precondition is not opened.  The frames of the two kernels are the generated ones; the reference's frame is its
  generated run with the results dropped; the idealization rewrote nothing.
-/
import proofs.«137212_j88897233093049_2_alg».proof.Defs
import proofs.«137212_j88897233093049_2_alg».proof.Proof.Gen.Kernel
import proofs.«137212_j88897233093049_2_alg».proof.Proof.Gen.Kernel.Skeleton
import proofs.«137212_j88897233093049_2_alg».proof.Proof.Gen.Kernel.Launch
import proofs.«137212_j88897233093049_2_alg».proof.Proof.Gen.Kernel.Points
import proofs.«137212_j88897233093049_2_alg».proof.Proof.Gen.Kernel.Frame
import proofs.«137212_j88897233093049_2_alg».proof.Proof.Gen.KernelIdeal
import proofs.«137212_j88897233093049_2_alg».proof.Proof.Gen.KernelIdeal.Skeleton
import proofs.«137212_j88897233093049_2_alg».proof.Proof.Gen.KernelIdeal.Launch
import proofs.«137212_j88897233093049_2_alg».proof.Proof.Gen.KernelIdeal.Points
import proofs.«137212_j88897233093049_2_alg».proof.Proof.Gen.KernelIdeal.Frame
import proofs.«137212_j88897233093049_2_alg».proof.Proof.Gen.ReferenceIdeal
import proofs.«137212_j88897233093049_2_alg».proof.Proof.Gen.ReferenceIdeal.Run
import proofs.«137212_j88897233093049_2_alg».proof.Proof.Gen.ReferenceIdeal.Read
import proofs.«137212_j88897233093049_2_alg».proof.Proof.Gen.Pre_finite_inputs
import proofs.«137212_j88897233093049_2_alg».proof.Proof.KFinal
import proofs.«137212_j88897233093049_2_alg».proof.Proof.RRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the specification's two results of the (agreeing) argument arrays. -/
theorem algebraic : Cert.algebraic_KernelIdeal_ReferenceIdeal := by
  intro m ρ m' ρ' _ hagree
  refine ⟨_, _, Cert.KernelIdeal.KFinal.run m ρ, ?_⟩
  refine (θ_run Cert.ReferenceIdeal.defs _ _).mono (fun _ h c => ⟨?_, ?_, (h c).2.2⟩) (Cert.ReferenceIdeal.Value.run (F := Ideal) m' ρ')
  · obtain ⟨h0, h1, h2, h3, h4, h5, h6, h7, h8, h9⟩ := hagree c
    rw [(h c).1, Cert.ReferenceIdeal.Read.val_main_v48_eq, Cert.ReferenceIdeal.RRead.v48_eq, h0, h1, h2, h3, h4, h5, h6, h7, h8, h9]
  · obtain ⟨h0, h1, h2, h3, h4, h5, h6, h7, h8, h9⟩ := hagree c
    rw [(h c).2.1, Cert.ReferenceIdeal.Read.val_main_v52_eq, Cert.ReferenceIdeal.RRead.v52_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
